-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x2x800000 : Shape := ⟨3, ![3, 2, 800000]⟩
abbrev S3x800000 : Shape := ⟨2, ![3, 800000]⟩
abbrev S3x3x128x128 : Shape := ⟨4, ![3, 3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x800000 : S_.BroadcastsInDim S3x800000 (![] : Fin 0 → Fin S3x800000.rank)
  reducesTo_S3x800000_S_d0_1 : S3x800000.ReducesTo [0, 1] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S50000x128 .f32) (main_arg1 : IVec S3x2x800000 32) (main_arg2 : FVec F S3x800000 .f32) (main_arg3 : FVec F S3x3x128x128 .f32) (main_arg4 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x800000 .f32 := Host.absf main_arg2
  let main_cst_0 : FVec F S_ .f32 := constant S_ .f32 0x7F800000#32
  let main_v5 : FVec F S3x800000 .f32 := broadcastInDim S3x800000 ![] bcast_S_S3x800000 main_cst_0
  let main_v6 : IVec S3x800000 1 := cmpf .olt main_v4 main_v5
  let main_c_1 : IVec S_ 1 := constantI S_ 1 1#1
  let main_v7 : IVec S_ 1 := (fun x v => Host.reduce IntOp.andi x v reducesTo_S3x800000_S_d0_1 h_S_) main_v6 main_c_1
  let main_v8 : IVec S_ 1 := andi main_v3 main_v7
  let main_v9 : FVec F S3x3x128x128 .f32 := Host.absf main_arg3
  let main_cst_2 : FVec F S_ .f32 := constant S_ .f32 0x7F800000#32
  let main_v10 : FVec F S3x3x128x128 .f32 := broadcastInDim S3x3x128x128 ![] bcast_S_S3x3x128x128 main_cst_2
  let main_v11 : IVec S3x3x128x128 1 := cmpf .olt main_v9 main_v10
  let main_c_3 : IVec S_ 1 := constantI S_ 1 1#1
  let main_v12 : IVec S_ 1 := (fun x v => Host.reduce IntOp.andi x v reducesTo_S3x3x128x128_S_d0_1_2_3 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S50000x128 : Shape := ⟨2, ![50000, 128]⟩
abbrev S3x2x800000 : Shape := ⟨3, ![3, 2, 800000]⟩
abbrev S3x800000 : Shape := ⟨2, ![3, 800000]⟩
abbrev S3x3x128x128 : Shape := ⟨4, ![3, 3, 128, 128]⟩
abbrev S3x128 : Shape := ⟨2, ![3, 128]⟩
abbrev S1x1x800000 : Shape := ⟨3, ![1, 1, 800000]⟩
abbrev S800000 : Shape := ⟨1, ![800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x896 : Shape := ⟨2, ![50000, 896]⟩
abbrev S3x1x128x128 : Shape := ⟨4, ![3, 1, 128, 128]⟩
abbrev S3x128x128 : Shape := ⟨3, ![3, 128, 128]⟩
abbrev S128x128 : Shape := ⟨2, ![128, 128]⟩
abbrev S3x2x128x128 : Shape := ⟨4, ![3, 2, 128, 128]⟩
abbrev S768x128 : Shape := ⟨2, ![768, 128]⟩
abbrev S896x128 : Shape := ⟨2, ![896, 128]⟩
abbrev S128 : Shape := ⟨1, ![128]⟩
abbrev S1x128 : Shape := ⟨2, ![1, 128]⟩
abbrev S2000x896 : Shape := ⟨2, ![2000, 896]⟩
abbrev S2000x128 : Shape := ⟨2, ![2000, 128]⟩

abbrev nBuf : Space → Nat
  | .hbm => 208
  | .vmem => 6
  | .smem => 0
  | _ => 0

abbrev hbmTy0_0 (i : Nat) : BufTy := match i % 128 with
  | 0 => ⟨S50000x128, .f32⟩
  | 1 => ⟨S3x2x800000, .i32⟩
  | 2 => ⟨S3x800000, .f32⟩
  | 3 => ⟨S3x3x128x128, .f32⟩
  | 4 => ⟨S3x128, .f32⟩
  | 5 => ⟨S1x1x800000, .i32⟩
  | 6 => ⟨S800000, .i32⟩
  | 7 => ⟨S1x1x800000, .i32⟩
  | 8 => ⟨S800000, .i32⟩
  | 9 => ⟨S1x800000, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S800000, .f32⟩
  | 17 => ⟨S800000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S800000x1, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x1, .f32⟩
  | 41 => ⟨S50000x128, .f32⟩
  | 42 => ⟨S50000x128, .f32⟩
  | 43 => ⟨S50000x128, .f32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x1, .f32⟩
  | 61 => ⟨S50000x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S1x1x800000, .i32⟩
  | 69 => ⟨S800000, .i32⟩
  | 70 => ⟨S1x1x800000, .i32⟩
  | 71 => ⟨S800000, .i32⟩
  | 72 => ⟨S1x800000, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S800000, .f32⟩
  | 80 => ⟨S800000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .f32⟩
  | 87 => ⟨S800000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x1, .f32⟩
  | 104 => ⟨S50000x128, .f32⟩
  | 105 => ⟨S50000x128, .f32⟩
  | 106 => ⟨S50000x128, .f32⟩
  | 107 => ⟨S800000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x1, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x1x800000, .i32⟩
  | 4 => ⟨S800000, .i32⟩
  | 5 => ⟨S1x1x800000, .i32⟩
  | 6 => ⟨S800000, .i32⟩
  | 7 => ⟨S1x800000, .f32⟩
  | 8 => ⟨S800000, .f32⟩
  | 9 => ⟨S_, .f32⟩
  | 10 => ⟨S50000, .f32⟩
  | 11 => ⟨S800000x1, .i32⟩
  | 12 => ⟨S50000, .f32⟩
  | 13 => ⟨S_, .f32⟩
  | 14 => ⟨S800000, .f32⟩
  | 15 => ⟨S800000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000x1, .f32⟩
  | 39 => ⟨S50000x128, .f32⟩
  | 40 => ⟨S50000x128, .f32⟩
  | 41 => ⟨S50000x128, .f32⟩
  | 42 => ⟨S800000x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000x1, .f32⟩
  | 59 => ⟨S50000x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S50000x896, .f32⟩
  | 67 => ⟨S3x1x128x128, .f32⟩
  | 68 => ⟨S3x128x128, .f32⟩
  | 69 => ⟨S_, .f32⟩
  | 70 => ⟨S128x128, .f32⟩
  | 71 => ⟨S3x2x128x128, .f32⟩
  | 72 => ⟨S768x128, .f32⟩
  | 73 => ⟨S896x128, .f32⟩
  | 74 => ⟨S_, .f32⟩
  | 75 => ⟨S128, .f32⟩
  | 76 => ⟨S1x128, .f32⟩
  | 77 => ⟨S50000x896, .bf16⟩
  | 78 => ⟨S896x128, .bf16⟩
  | 79 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x896, .bf16⟩
  | .local _ .vmem, ⟨1, _⟩ => ⟨S2000x896, .bf16⟩
  | .local _ .vmem, ⟨2, _⟩ => ⟨S896x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_13 : Ref sig .tc := ⟨.hbm, 88, rfl⟩
abbrev main_v68 : Ref sig .tc := ⟨.hbm, 89, rfl⟩
abbrev main_v69 : Ref sig .tc := ⟨.hbm, 90, rfl⟩
abbrev main_c_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_c_16 : Ref sig .tc := ⟨.hbm, 108, rfl⟩
abbrev main_v85 : Ref sig .tc := ⟨.hbm, 109, rfl⟩
abbrev main_v86 : Ref sig .tc := ⟨.hbm, 110, rfl⟩
abbrev main_c_17 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_18 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_19 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_20 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_21 : Ref sig .tc := ⟨.hbm, 141, rfl⟩
abbrev main_v113 : Ref sig .tc := ⟨.hbm, 142, rfl⟩
abbrev main_v114 : Ref sig .tc := ⟨.hbm, 143, rfl⟩
abbrev main_cst_22 : Ref sig .tc := ⟨.hbm, 144, rfl⟩
abbrev main_v115 : Ref sig .tc := ⟨.hbm, 145, rfl⟩
abbrev main_v116 : Ref sig .tc := ⟨.hbm, 146, rfl⟩
abbrev main_cst_23 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_c_24 : Ref sig .tc := ⟨.hbm, 151, rfl⟩
abbrev main_v120 : Ref sig .tc := ⟨.hbm, 152, rfl⟩
abbrev main_v121 : Ref sig .tc := ⟨.hbm, 153, rfl⟩
abbrev main_c_25 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_26 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_c_27 : Ref sig .tc := ⟨.hbm, 171, rfl⟩
abbrev main_v137 : Ref sig .tc := ⟨.hbm, 172, rfl⟩
abbrev main_v138 : Ref sig .tc := ⟨.hbm, 173, rfl⟩
abbrev main_c_28 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_29 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_30 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_cst_31 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_cst_32 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S896x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S3x2x800000_S1x1x800000_0_0_0 : S3x2x800000.Slices ![0, 0, 0] S1x1x800000
  shapeCasts_S1x1x800000_S800000 : S1x1x800000.ShapeCasts S800000
  slices_S3x2x800000_S1x1x800000_0_1_0 : S3x2x800000.Slices ![0, 1, 0] S1x1x800000
  slices_S3x800000_S1x800000_0_0 : S3x800000.Slices ![0, 0] S1x800000
  shapeCasts_S1x800000_S800000 : S1x800000.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x2x800000_S1x1x800000_1_0_0 : S3x2x800000.Slices ![1, 0, 0] S1x1x800000
  slices_S3x2x800000_S1x1x800000_1_1_0 : S3x2x800000.Slices ![1, 1, 0] S1x1x800000
  slices_S3x800000_S1x800000_1_0 : S3x800000.Slices ![1, 0] S1x800000
  slices_S3x2x800000_S1x1x800000_2_0_0 : S3x2x800000.Slices ![2, 0, 0] S1x1x800000
  slices_S3x2x800000_S1x1x800000_2_1_0 : S3x2x800000.Slices ![2, 1, 0] S1x1x800000
  slices_S3x800000_S1x800000_2_0 : S3x800000.Slices ![2, 0] S1x800000
  concatenates_S50000x128_S50000x128_S50000x128_S50000x128_S50000x128_S50000x128_S50000x128_S50000x896_d1 : Shape.Concatenates [S50000x128, S50000x128, S50000x128, S50000x128, S50000x128, S50000x128, S50000x128] S50000x896 1
  slices_S3x3x128x128_S3x1x128x128_0_0_0_0 : S3x3x128x128.Slices ![0, 0, 0, 0] S3x1x128x128
  shapeCasts_S3x1x128x128_S3x128x128 : S3x1x128x128.ShapeCasts S3x128x128
  reducesTo_S3x128x128_S128x128_d0 : S3x128x128.ReducesTo [0] S128x128
  h_S_ : 0 < S_.numel
  slices_S3x3x128x128_S3x2x128x128_0_1_0_0 : S3x3x128x128.Slices ![0, 1, 0, 0] S3x2x128x128
  shapeCasts_S3x2x128x128_S768x128 : S3x2x128x128.ShapeCasts S768x128
  concatenates_S128x128_S768x128_S896x128_d0 : Shape.Concatenates [S128x128, S768x128] S896x128 0
  reducesTo_S3x128_S128_d0 : S3x128.ReducesTo [0] S128
  bcast_S128_S1x128_1 : S128.BroadcastsInDim S1x128 (![1] : Fin 1 → Fin S1x128.rank)
  bitsLt_bf16_f32 : FTy.bits .bf16 < FTy.bits .f32
  inb_S2000x896_S2000x896_0_0 : ∀ a, (![0, 0] : Fin 2 → Nat) a + S2000x896.size a ≤ S2000x896.size a
  h_S2000x896 : 0 < S2000x896.numel
  shapeCasts_S2000x896_S2000x896 : S2000x896.ShapeCasts S2000x896
  inb_S896x128_S896x128_0_0 : ∀ a, (![0, 0] : Fin 2 → Nat) a + S896x128.size a ≤ S896x128.size a
  h_S896x128 : 0 < S896x128.numel
  shapeCasts_S896x128_S896x128 : S896x128.ShapeCasts S896x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x896_S896x128_S2000x128_1_0_0_1_n_n_wf : DotDims.WF S2000x896 S896x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x896.size a ≤ S50000x896.size a
  hwx0_0 : ∀ i : grid0.Coords, EltTy.bits .bf16 = 32 ∨ (Rect.block (s := S50000x896) S2000x896.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S896x128.size a ≤ S896x128.size a
  hwx0_1 : ∀ i : grid0.Coords, EltTy.bits .bf16 = 32 ∨ (Rect.block (s := S896x128) S896x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x896_S896x128_S2000x128_1_0_0_1_n_n : DotDims S2000x896 S896x128 S2000x128 where
  lhsContracting := [1]
  rhsContracting := [0]
  lhsNonContracting := [0]
  rhsNonContracting := [1]
  lhsBatch := []
  rhsBatch := []
  wf := dot_S2000x896_S896x128_S2000x128_1_0_0_1_n_n_wf

abbrev win0_0 : Pipeline.Window sig grid0 :=
  Pipeline.Window.ofSpec (Memref.whole main_v165) S2000x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v166) S896x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v164) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v167) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S3x2x800000 : Shape := ⟨3, ![3, 2, 800000]⟩
abbrev S3x800000 : Shape := ⟨2, ![3, 800000]⟩
abbrev S3x3x128x128 : Shape := ⟨4, ![3, 3, 128, 128]⟩
abbrev S3x128 : Shape := ⟨2, ![3, 128]⟩
abbrev S_ : Shape := ⟨0, ![]⟩
abbrev S1x2x800000 : Shape := ⟨3, ![1, 2, 800000]⟩
abbrev S2x800000 : Shape := ⟨2, ![2, 800000]⟩
abbrev S1x800000 : Shape := ⟨2, ![1, 800000]⟩
abbrev S800000 : Shape := ⟨1, ![800000]⟩
abbrev S1x3x128x128 : Shape := ⟨4, ![1, 3, 128, 128]⟩
abbrev S3x128x128 : Shape := ⟨3, ![3, 128, 128]⟩
abbrev S1x128 : Shape := ⟨2, ![1, 128]⟩
abbrev S128 : Shape := ⟨1, ![128]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S50000x1 : Shape := ⟨2, ![50000, 1]⟩

abbrev nBuf : Space → Nat
  | .hbm => 259
  | .vmem => 0
  | .smem => 0
  | _ => 0

abbrev hbmTy0_0 (i : Nat) : BufTy := match i % 128 with
  | 0 => ⟨S50000x128, .f32⟩
  | 1 => ⟨S3x2x800000, .i32⟩
  | 2 => ⟨S3x800000, .f32⟩
  | 3 => ⟨S3x3x128x128, .f32⟩
  | 4 => ⟨S3x128, .f32⟩
  | 5 => ⟨S_, .f32⟩
  | 6 => ⟨S50000x128, .f32⟩
  | 7 => ⟨S1x2x800000, .i32⟩
  | 8 => ⟨S2x800000, .i32⟩
  | 9 => ⟨S1x800000, .f32⟩
  | 10 => ⟨S800000, .f32⟩
  | 11 => ⟨S1x3x128x128, .f32⟩
  | 12 => ⟨S3x128x128, .f32⟩
  | 13 => ⟨S1x128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S50000, .f32⟩
  | 21 => ⟨S800000x1, .i32⟩
  | 22 => ⟨S50000, .f32⟩
  | 23 => ⟨S_, .f32⟩
  | 24 => ⟨S800000, .f32⟩
  | 25 => ⟨S800000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S1x128x128, .f32⟩
  | 33 => ⟨S128x128, .f32⟩
  | 34 => ⟨S50000x128, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x1, .f32⟩
  | 52 => ⟨S50000x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S50000x128, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S50000x1, .f32⟩
  | 76 => ⟨S50000x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S50000x128, .f32⟩
  | 91 => ⟨S1x2x800000, .i32⟩
  | 92 => ⟨S2x800000, .i32⟩
  | 93 => ⟨S1x800000, .f32⟩
  | 94 => ⟨S800000, .f32⟩
  | 95 => ⟨S1x3x128x128, .f32⟩
  | 96 => ⟨S3x128x128, .f32⟩
  | 97 => ⟨S1x128, .f32⟩
  | 98 => ⟨S128, .f32⟩
  | 99 => ⟨S1x800000, .i32⟩
  | 100 => ⟨S800000, .i32⟩
  | 101 => ⟨S1x800000, .i32⟩
  | 102 => ⟨S800000, .i32⟩
  | 103 => ⟨S_, .f32⟩
  | 104 => ⟨S50000, .f32⟩
  | 105 => ⟨S800000x1, .i32⟩
  | 106 => ⟨S50000, .f32⟩
  | 107 => ⟨S_, .f32⟩
  | 108 => ⟨S800000, .f32⟩
  | 109 => ⟨S800000, .f32⟩
  | 110 => ⟨S_, .f32⟩
  | 111 => ⟨S50000, .f32⟩
  | 112 => ⟨S50000, .f32⟩
  | 113 => ⟨S_, .f32⟩
  | 114 => ⟨S50000, .f32⟩
  | 115 => ⟨S50000, .f32⟩
  | 116 => ⟨S1x128x128, .f32⟩
  | 117 => ⟨S128x128, .f32⟩
  | 118 => ⟨S50000x128, .f32⟩
  | 119 => ⟨S800000x1, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000x1, .f32⟩
  | 8 => ⟨S50000x128, .f32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S50000x128, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x1, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S1x2x800000, .i32⟩
  | 48 => ⟨S2x800000, .i32⟩
  | 49 => ⟨S1x800000, .f32⟩
  | 50 => ⟨S800000, .f32⟩
  | 51 => ⟨S1x3x128x128, .f32⟩
  | 52 => ⟨S3x128x128, .f32⟩
  | 53 => ⟨S1x128, .f32⟩
  | 54 => ⟨S128, .f32⟩
  | 55 => ⟨S1x800000, .i32⟩
  | 56 => ⟨S800000, .i32⟩
  | 57 => ⟨S1x800000, .i32⟩
  | 58 => ⟨S800000, .i32⟩
  | 59 => ⟨S_, .f32⟩
  | 60 => ⟨S50000, .f32⟩
  | 61 => ⟨S800000x1, .i32⟩
  | 62 => ⟨S50000, .f32⟩
  | 63 => ⟨S_, .f32⟩
  | 64 => ⟨S800000, .f32⟩
  | 65 => ⟨S800000, .f32⟩
  | 66 => ⟨S_, .f32⟩
  | 67 => ⟨S50000, .f32⟩
  | 68 => ⟨S50000, .f32⟩
  | 69 => ⟨S_, .f32⟩
  | 70 => ⟨S50000, .f32⟩
  | 71 => ⟨S50000, .f32⟩
  | 72 => ⟨S1x128x128, .f32⟩
  | 73 => ⟨S128x128, .f32⟩
  | 74 => ⟨S50000x128, .f32⟩
  | 75 => ⟨S800000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x1, .f32⟩
  | 92 => ⟨S50000x128, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S50000x128, .f32⟩
  | 99 => ⟨S800000x1, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x1, .f32⟩
  | 116 => ⟨S50000x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S50000x128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_10 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_11 : Ref sig .tc := ⟨.hbm, 107, rfl⟩
abbrev main_v89 : Ref sig .tc := ⟨.hbm, 108, rfl⟩
abbrev main_v90 : Ref sig .tc := ⟨.hbm, 109, rfl⟩
abbrev main_cst_12 : Ref sig .tc := ⟨.hbm, 110, rfl⟩
abbrev main_v91 : Ref sig .tc := ⟨.hbm, 111, rfl⟩
abbrev main_v92 : Ref sig .tc := ⟨.hbm, 112, rfl⟩
abbrev main_cst_13 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_c_14 : Ref sig .tc := ⟨.hbm, 120, rfl⟩
abbrev main_v99 : Ref sig .tc := ⟨.hbm, 121, rfl⟩
abbrev main_v100 : Ref sig .tc := ⟨.hbm, 122, rfl⟩
abbrev main_c_15 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_16 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_c_17 : Ref sig .tc := ⟨.hbm, 144, rfl⟩
abbrev main_v120 : Ref sig .tc := ⟨.hbm, 145, rfl⟩
abbrev main_v121 : Ref sig .tc := ⟨.hbm, 146, rfl⟩
abbrev main_c_18 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_cst_19 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_cst_20 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_cst_21 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_cst_22 : Ref sig .tc := ⟨.hbm, 191, rfl⟩
abbrev main_v162 : Ref sig .tc := ⟨.hbm, 192, rfl⟩
abbrev main_v163 : Ref sig .tc := ⟨.hbm, 193, rfl⟩
abbrev main_cst_23 : Ref sig .tc := ⟨.hbm, 194, rfl⟩
abbrev main_v164 : Ref sig .tc := ⟨.hbm, 195, rfl⟩
abbrev main_v165 : Ref sig .tc := ⟨.hbm, 196, rfl⟩
abbrev main_cst_24 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_c_25 : Ref sig .tc := ⟨.hbm, 204, rfl⟩
abbrev main_v172 : Ref sig .tc := ⟨.hbm, 205, rfl⟩
abbrev main_v173 : Ref sig .tc := ⟨.hbm, 206, rfl⟩
abbrev main_c_26 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_cst_27 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_c_28 : Ref sig .tc := ⟨.hbm, 228, rfl⟩
abbrev main_v193 : Ref sig .tc := ⟨.hbm, 229, rfl⟩
abbrev main_v194 : Ref sig .tc := ⟨.hbm, 230, rfl⟩
abbrev main_c_29 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_cst_30 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_cst_31 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S3x2x800000_S1x2x800000_0_0_0 : S3x2x800000.Slices ![0, 0, 0] S1x2x800000
  shapeCasts_S1x2x800000_S2x800000 : S1x2x800000.ShapeCasts S2x800000
  slices_S3x800000_S1x800000_0_0 : S3x800000.Slices ![0, 0] S1x800000
  shapeCasts_S1x800000_S800000 : S1x800000.ShapeCasts S800000
  slices_S3x3x128x128_S1x3x128x128_0_0_0_0 : S3x3x128x128.Slices ![0, 0, 0, 0] S1x3x128x128
  shapeCasts_S1x3x128x128_S3x128x128 : S1x3x128x128.ShapeCasts S3x128x128
  slices_S3x128_S1x128_0_0 : S3x128.Slices ![0, 0] S1x128
  shapeCasts_S1x128_S128 : S1x128.ShapeCasts S128
  slices_S2x800000_S1x800000_0_0 : S2x800000.Slices ![0, 0] S1x800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x2x800000_S1x2x800000_1_0_0 : S3x2x800000.Slices ![1, 0, 0] S1x2x800000
  slices_S3x800000_S1x800000_1_0 : S3x800000.Slices ![1, 0] S1x800000
  slices_S3x3x128x128_S1x3x128x128_1_0_0_0 : S3x3x128x128.Slices ![1, 0, 0, 0] S1x3x128x128
  slices_S3x128_S1x128_1_0 : S3x128.Slices ![1, 0] S1x128
  slices_S3x2x800000_S1x2x800000_2_0_0 : S3x2x800000.Slices ![2, 0, 0] S1x2x800000
  slices_S3x800000_S1x800000_2_0 : S3x800000.Slices ![2, 0] S1x800000
  slices_S3x3x128x128_S1x3x128x128_2_0_0_0 : S3x3x128x128.Slices ![2, 0, 0, 0] S1x3x128x128
  slices_S3x128_S1x128_2_0 : S3x128.Slices ![2, 0] S1x128
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.FrameBits.lean ====
/-
  The frame of the program's one region, written against the pipeline library's launch theorem.

  The program is four stretches of host operations followed by one launch over a grid of 25 points.
  Window 0 stages rows [2000 t, 2000 t + 2000) of the 50000 x 896 feature matrix, windows 1 and 2 the
  whole 896 x 128 weight matrix and the 1 x 128 bias row (fetched once), window 3 writes rows
  [2000 t, 2000 t + 2000) of the 50000 x 128 result.  The body loads the three input blocks whole and
  stores one value, covering its output block.  No host operation writes an argument array, and no
  window stages one, so every argument array ends as it was launched.
-/
import proofs.«176885_j5111011082637_1_alg».proof.Proof.Gen.Kernel.Launch
import proofs.«176885_j5111011082637_1_alg».proof.Proof.Gen.Kernel.Skeleton
import proofs.«176885_j5111011082637_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The four stretches of host operations, in order. -/
abbrev stretches : List (List (HloOp τ sig (Elt F))) :=
  [main_part0_ops0, main_part1_ops0, main_part2_ops0, main_part3_ops0]

/-- Core `c`'s buffers when the region is entered: the launch contents after the four stretches. -/
abbrev V (c : Dev nD) (b : Ref sig .tc) : Buf (Elt F) ((c : Thread nD τ).loc b) :=
  StableHlo.after (List.flatten (stretches (F := F))) (fun b => m (c, b)) b

theorem fresh0 : (main_part0_ops0 : List (HloOp τ sig (Elt F))).Forall fun op => op.fresh = ∅ := by
  simp only [List.Forall]; repeat' constructor
theorem fresh1 : (main_part1_ops0 : List (HloOp τ sig (Elt F))).Forall fun op => op.fresh = ∅ := by
  simp only [List.Forall]; repeat' constructor
theorem fresh2 : (main_part2_ops0 : List (HloOp τ sig (Elt F))).Forall fun op => op.fresh = ∅ := by
  simp only [List.Forall]; repeat' constructor
theorem fresh3 : (main_part3_ops0 : List (HloOp τ sig (Elt F))).Forall fun op => op.fresh = ∅ := by
  simp only [List.Forall]; repeat' constructor

/-- @main is the four stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨main_part0_ops0_sub, main_part1_ops0_sub, main_part2_ops0_sub, main_part3_ops0_sub⟩)
    (by simp only [List.Forall]; exact ⟨fresh0, fresh1, fresh2, fresh3⟩) main_chain_windows

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument array is an unscoped buffer no window stages, so the frame run's post has it at its contents at
    the region's entry, which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## What the body leaves in the output window's buffer -/

/-- The body's one store: the whole 2000 x 128 block. -/
abbrev whole : Rect S2000x128 := Rect.unit (s := S2000x128) ![0, 0] S2000x128.size inb_S2000x128_S2000x128_0_0

/-- The output block after the body, from the three input blocks: the product of the feature block with the
    weight matrix plus the bias row, stored over the whole block. -/
def out0_3 (x0 : Vec F S2000x896 .bf16) (x1 : Vec F S896x128 .bf16) (x2 : Vec F S1x128 .f32) : Vec F S2000x128 .f32 :=
  View.canon [⟨whole, k0_pay1 (View.ld x0 (Rect.unit (s := S2000x896) ![0, 0] S2000x896.size inb_S2000x896_S2000x896_0_0))
    (View.ld x1 (Rect.unit (s := S896x128) ![0, 0] S896x128.size inb_S896x128_S896x128_0_0))
    (View.ld x2 (Rect.unit (s := S1x128) ![0, 0] S1x128.size inb_S1x128_S1x128_0_0))⟩]

/-- The one store covers the block. -/
theorem cover0_3 (p0 : Vec F S2000x128 .f32) (y : S2000x128.Idx) :
    ∃ pc ∈ ([⟨whole, p0⟩] : List (View.Piece (Elt F) S2000x128 .f32)), y ∈ pc.1.set :=
  View.cover_of_tiled [⟨whole, p0⟩] S2000x128.size (by rfl) y

/-! ## The body's triple -/

set_option maxHeartbeats 1000000 in
/-- The body on whole staging memrefs, the inputs' at contents `xW` and the output's at anything, runs to the
    continuation holding the inputs' as they were and the output's at `out0_3` of the inputs'. -/
theorem sound_kernel (c : Dev nD) (E : Set ℕ) (i : grid0.Coords) (arg1 : Memref sig .tc .vmem S2000x896 .bf16) (harg1 : arg1.IsWhole) (arg2 : Memref sig .tc .vmem S896x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x896 .bf16) (x1 : Vec F S896x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the output's at `out0_3` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Frame

end
-- ==== Proof.FrameIdeal.lean ====
/-
  The frame of the program's one region, written against the pipeline library's launch theorem.

  The program is four stretches of host operations followed by one launch over a grid of 25 points.
  Window 0 stages rows [2000 t, 2000 t + 2000) of the 50000 x 896 feature matrix, windows 1 and 2 the
  whole 896 x 128 weight matrix and the 1 x 128 bias row (fetched once), window 3 writes rows
  [2000 t, 2000 t + 2000) of the 50000 x 128 result.  The body loads the three input blocks whole and
  stores one value, covering its output block.  No host operation writes an argument array, and no
  window stages one, so every argument array ends as it was launched.
-/
import proofs.«176885_j5111011082637_1_alg».proof.Proof.Gen.KernelIdeal.Launch
import proofs.«176885_j5111011082637_1_alg».proof.Proof.Gen.KernelIdeal.Skeleton
import proofs.«176885_j5111011082637_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The four stretches of host operations, in order. -/
abbrev stretches : List (List (HloOp τ sig (Elt F))) :=
  [main_part0_ops0, main_part1_ops0, main_part2_ops0, main_part3_ops0]

/-- Core `c`'s buffers when the region is entered: the launch contents after the four stretches. -/
abbrev V (c : Dev nD) (b : Ref sig .tc) : Buf (Elt F) ((c : Thread nD τ).loc b) :=
  StableHlo.after (List.flatten (stretches (F := F))) (fun b => m (c, b)) b

theorem fresh0 : (main_part0_ops0 : List (HloOp τ sig (Elt F))).Forall fun op => op.fresh = ∅ := by
  simp only [List.Forall]; repeat' constructor
theorem fresh1 : (main_part1_ops0 : List (HloOp τ sig (Elt F))).Forall fun op => op.fresh = ∅ := by
  simp only [List.Forall]; repeat' constructor
theorem fresh2 : (main_part2_ops0 : List (HloOp τ sig (Elt F))).Forall fun op => op.fresh = ∅ := by
  simp only [List.Forall]; repeat' constructor
theorem fresh3 : (main_part3_ops0 : List (HloOp τ sig (Elt F))).Forall fun op => op.fresh = ∅ := by
  simp only [List.Forall]; repeat' constructor

/-- @main is the four stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨main_part0_ops0_sub, main_part1_ops0_sub, main_part2_ops0_sub, main_part3_ops0_sub⟩)
    (by simp only [List.Forall]; exact ⟨fresh0, fresh1, fresh2, fresh3⟩) main_chain_windows

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [stretches, main_part0_ops0, main_part1_ops0, main_part2_ops0, main_part3_ops0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Every argument array is an unscoped buffer no window stages, so the frame run's post has it at its contents at
    the region's entry, which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## What the body leaves in the output window's buffer -/

/-- The body's one store: the whole 2000 x 128 block. -/
abbrev whole : Rect S2000x128 := Rect.unit (s := S2000x128) ![0, 0] S2000x128.size inb_S2000x128_S2000x128_0_0

/-- The output block after the body, from the three input blocks: the product of the feature block with the
    weight matrix plus the bias row, stored over the whole block. -/
def out0_3 (x0 : Vec F S2000x896 .bf16) (x1 : Vec F S896x128 .bf16) (x2 : Vec F S1x128 .f32) : Vec F S2000x128 .f32 :=
  View.canon [⟨whole, k0_pay1 (View.ld x0 (Rect.unit (s := S2000x896) ![0, 0] S2000x896.size inb_S2000x896_S2000x896_0_0))
    (View.ld x1 (Rect.unit (s := S896x128) ![0, 0] S896x128.size inb_S896x128_S896x128_0_0))
    (View.ld x2 (Rect.unit (s := S1x128) ![0, 0] S1x128.size inb_S1x128_S1x128_0_0))⟩]

/-- The one store covers the block. -/
theorem cover0_3 (p0 : Vec F S2000x128 .f32) (y : S2000x128.Idx) :
    ∃ pc ∈ ([⟨whole, p0⟩] : List (View.Piece (Elt F) S2000x128 .f32)), y ∈ pc.1.set :=
  View.cover_of_tiled [⟨whole, p0⟩] S2000x128.size (by rfl) y

/-! ## The body's triple -/

set_option maxHeartbeats 1000000 in
/-- The body on whole staging memrefs, the inputs' at contents `xW` and the output's at anything, runs to the
    continuation holding the inputs' as they were and the output's at `out0_3` of the inputs'. -/
theorem sound_kernel (c : Dev nD) (E : Set ℕ) (i : grid0.Coords) (arg1 : Memref sig .tc .vmem S2000x896 .bf16) (harg1 : arg1.IsWhole) (arg2 : Memref sig .tc .vmem S896x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x896 .bf16) (x1 : Vec F S896x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the output's at `out0_3` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Frame

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.PrefixIdeal.lean ====
/-
  The host operations before the region, read stretch by stretch.

  For each of the three graph convolutions i the program slices the edge sources s, the edge targets d and the edge
  weights w out of its arguments and forms, from the node features x,
    T₁ = L x,   T₂ = 2 · L T₁ − x,   where  L v = scatter-add over d of ((−1 · w) · v[s]) + (1 · deg − 1) · v,
  deg the scatter-add of w over s.  It then joins x, T₁ and T₂ of the three convolutions along the columns
  (50000 × 896), joins the sum over i of the weights W[i,0] above the six matrices W[i,1], W[i,2] (896 × 128), and sums
  the three bias vectors into one row.  The 202 operations come in four stretches; what a later stretch needs of an
  earlier one is named here, so that each stretch is evaluated once from an arbitrary memory.
-/
import proofs.«176885_j5111011082637_1_alg».proof.Proof.Gen.KernelIdeal.Launch
import Idealize.ShloMosaic.Lib.StableHlo.Run
import proofs.«176885_j5111011082637_1_alg».proof.Proof.LibStretches

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-! ## The pieces of one convolution -/

/-- One row of the edge list: the sources (second offset 0) or the targets (second offset 1) of a convolution. -/
def ends (off : Fin 3 → Nat) (h : S3x2x800000.Slices off S1x1x800000) (a1 : IVec S3x2x800000 32) : IVec S800000 32 :=
  shapeCast S800000 (extractStridedSlice S1x1x800000 off a1 h) shapeCasts_S1x1x800000_S800000

/-- The edge weights of a convolution. -/
def wts (off : Fin 2 → Nat) (h : S3x800000.Slices off S1x800000) (a2 : FVec F S3x800000 .f32) : FVec F S800000 .f32 :=
  shapeCast S800000 (extractStridedSlice S1x800000 off a2 h) shapeCasts_S1x800000_S800000

/-- The messages: each edge's weight, negated, times the row of `v` at the edge's source (a negative source counted
    from the end). -/
def msg (s : IVec S800000 32) (w : FVec F S800000 .f32) (v : FVec F S50000x128 .f32) : FVec F S800000x128 .f32 :=
  mulf (broadcastInDim S800000x128 ![0, 1] bcast_S800000x1_S800000x128_0_1 (broadcastInDim S800000x1 ![0] bcast_S800000_S800000x1_0 (mulf (broadcastInDim S800000 ![] bcast_S_S800000 (constant S_ .f32 0xBF800000#32)) w)))
    (Host.gather gather_S50000x128_S800000x1_S800000x128_1_0_n_n_0_1_1128 v
      (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))

/-- The messages added up at the edges' targets. -/
def agg (s d : IVec S800000 32) (w : FVec F S800000 .f32) (v : FVec F S50000x128 .f32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (d)) (msg s w v)

/-- The diagonal of the rescaled Laplacian: the weighted out-degree minus one. -/
def diagv (s : IVec S800000 32) (w : FVec F S800000 .f32) : FVec F S50000 .f32 :=
  subf (mulf (broadcastInDim S50000 ![] bcast_S_S50000 (constant S_ .f32 0x3F800000#32)) (Host.scatterAdd scatter_S50000_S800000x1_S800000_n_0_0_1 (broadcastInDim S50000 ![] bcast_S_S50000 (constant S_ .f32 0x00000000#32)) (broadcastInDim S800000x1 ![0] bcast_S800000_S800000x1_0 (s)) w)) (broadcastInDim S50000 ![] bcast_S_S50000 (constant S_ .f32 0x3F800000#32))

/-- The diagonal spread along the rows. -/
def diagb (dv : FVec F S50000 .f32) : FVec F S50000x128 .f32 :=
  broadcastInDim S50000x128 ![0, 1] bcast_S50000x1_S50000x128_0_1 (broadcastInDim S50000x1 ![0] bcast_S50000_S50000x1_0 dv)

/-- The rescaled Laplacian applied to `v`. -/
def lhat (s d : IVec S800000 32) (w : FVec F S800000 .f32) (v : FVec F S50000x128 .f32) : FVec F S50000x128 .f32 :=
  addf (agg s d w v) (mulf (diagb (diagv s w)) v)

/-- The second Chebyshev term from `L T₁` and `x`, the factor two a constant. -/
def second (two : FVec F S_ .f32) (l x : FVec F S50000x128 .f32) : FVec F S50000x128 .f32 :=
  subf (mulf (broadcastInDim S50000x128 ![] bcast_S_S50000x128 two) l) x

/-- The seven blocks joined along the columns. -/
def join7 (x t10 t20 t11 t21 t12 t22 : FVec F S50000x128 .f32) : FVec F S50000x896 .f32 :=
  concatenate S50000x896 1 [⟨S50000x128, x⟩, ⟨S50000x128, t10⟩, ⟨S50000x128, t20⟩, ⟨S50000x128, t11⟩, ⟨S50000x128, t21⟩, ⟨S50000x128, t12⟩, ⟨S50000x128, t22⟩]
    concatenates_S50000x128_S50000x128_S50000x128_S50000x128_S50000x128_S50000x128_S50000x128_S50000x896_d1

/-- The weights: the sum over the convolutions of W[·,0] above the six matrices W[i,1], W[i,2]. -/
def wcat (a3 : FVec F S3x3x128x128 .f32) : FVec F S896x128 .f32 :=
  concatenate S896x128 0 [⟨S128x128, Host.reduceAdd (shapeCast S3x128x128 (extractStridedSlice S3x1x128x128 ![0, 0, 0, 0] a3 slices_S3x3x128x128_S3x1x128x128_0_0_0_0) shapeCasts_S3x1x128x128_S3x128x128) (constant S_ .f32 0x00000000#32) reducesTo_S3x128x128_S128x128_d0 h_S_⟩,
      ⟨S768x128, shapeCast S768x128 (extractStridedSlice S3x2x128x128 ![0, 1, 0, 0] a3 slices_S3x3x128x128_S3x2x128x128_0_1_0_0) shapeCasts_S3x2x128x128_S768x128⟩]
    concatenates_S128x128_S768x128_S896x128_d0

/-- The bias row: the sum of the three bias vectors. -/
def brow (a4 : FVec F S3x128 .f32) : FVec F S1x128 .f32 :=
  broadcastInDim S1x128 ![1] bcast_S128_S1x128_1 (Host.reduceAdd a4 (constant S_ .f32 0x00000000#32) reducesTo_S3x128_S128_d0 h_S_)

/-! ## A seven-operand operation's result, each operand at its own reference -/

section Seven
variable {Val : EltTy → Type} {x0 x1 x2 x3 x4 x5 x6 y : Ref sig .tc}

theorem nary7_result'
    (f : ((k : Fin 7) → ((![x0, x1, x2, x3, x4, x5, x6] : Fin 7 → Ref sig .tc) k).ty.Contents Val) → y.ty.Contents Val) (hxs hy)
    (G : Valuation τ sig Val) :
    (nary (τ := τ) ![x0, x1, x2, x3, x4, x5, x6] y f hxs hy).result G (no_index (Proc.devRef .tc y))
      = f (Fin.cons (G (Proc.devRef .tc x0)) (Fin.cons (G (Proc.devRef .tc x1)) (Fin.cons (G (Proc.devRef .tc x2)) (Fin.cons (G (Proc.devRef .tc x3))
          (Fin.cons (G (Proc.devRef .tc x4)) (Fin.cons (G (Proc.devRef .tc x5)) (Fin.cons (G (Proc.devRef .tc x6)) (fun i => i.elim0)))))))) := by
  rw [nary_result]; congr 1; funext k; fin_cases k <;> rfl

end Seven

/-! ## What each stretch writes, and what it leaves alone -/

/-- The buffers stretch 0 writes. -/
abbrev written0 : List (Ref sig .tc) := [main_v0, main_v1, main_v2, main_v3, main_v4, main_v5, main_cst, main_v6, main_v7, main_v8, main_cst_0, main_v9, main_v10, main_cst_1, main_v11, main_v12, main_cst_2, main_v13, main_v14, main_v15, main_c, main_v16, main_v17, main_c_3, main_v18, main_v19, main_v20, main_v21, main_v22, main_v23, main_v24, main_cst_4, main_v25, main_v26, main_v27, main_v28, main_v29, main_v30, main_v31, main_v32, main_c_5, main_v33, main_v34, main_c_6, main_v35, main_v36, main_v37, main_v38, main_v39, main_v40, main_v41, main_cst_7, main_v42, main_v43, main_v44, main_v45, main_v46, main_v47, main_v48, main_cst_8]
set_option maxRecDepth 8192 in
set_option maxHeartbeats 4000000 in
theorem writes0 : (main_part0_ops0 : List (HloOp τ sig (Elt F))).Forall fun op => op.writes ⊆ ((written0).map (Proc.devRef (τ := τ) .tc)).toFinset := by
  simp only [main_part0_ops0, List.Forall]
  repeat' apply And.intro
  all_goals (simp only [nullary_writes, unary_writes, binary_writes, ternary_writes, reshape_writes, nary_writes, Finset.singleton_subset_iff, List.mem_toFinset]; exact List.mem_map_of_mem (by decide))
/-- A buffer stretch 0 does not write keeps its contents through it. -/
theorem keep0 (V0 : Valuation τ sig (Elt F)) (r : Ref sig .tc) (h : r ∉ written0) :
    after main_part0_ops0 V0 (Proc.devRef .tc r) = V0 (Proc.devRef .tc r) :=
  after_of_writes_sub main_part0_ops0 _ writes0 h

/-- The buffers stretch 1 writes. -/
abbrev written1 : List (Ref sig .tc) := [main_v49, main_v50, main_v51, main_v52, main_v53, main_v54, main_v55, main_v56, main_v57, main_cst_9, main_v58, main_v59, main_v60, main_cst_10, main_v61, main_v62, main_cst_11, main_v63, main_v64, main_cst_12, main_v65, main_v66, main_v67, main_c_13, main_v68, main_v69, main_c_14, main_v70, main_v71, main_v72, main_v73, main_v74, main_v75, main_v76, main_cst_15, main_v77, main_v78, main_v79, main_v80, main_v81, main_v82, main_v83, main_v84, main_c_16, main_v85, main_v86, main_c_17, main_v87, main_v88, main_v89, main_v90, main_v91, main_v92, main_v93, main_cst_18, main_v94, main_v95, main_v96, main_v97, main_v98]
set_option maxRecDepth 8192 in
set_option maxHeartbeats 4000000 in
theorem writes1 : (main_part1_ops0 : List (HloOp τ sig (Elt F))).Forall fun op => op.writes ⊆ ((written1).map (Proc.devRef (τ := τ) .tc)).toFinset := by
  simp only [main_part1_ops0, List.Forall]
  repeat' apply And.intro
  all_goals (simp only [nullary_writes, unary_writes, binary_writes, ternary_writes, reshape_writes, nary_writes, Finset.singleton_subset_iff, List.mem_toFinset]; exact List.mem_map_of_mem (by decide))
/-- A buffer stretch 1 does not write keeps its contents through it. -/
theorem keep1 (V0 : Valuation τ sig (Elt F)) (r : Ref sig .tc) (h : r ∉ written1) :
    after main_part1_ops0 V0 (Proc.devRef .tc r) = V0 (Proc.devRef .tc r) :=
  after_of_writes_sub main_part1_ops0 _ writes1 h

/-- The buffers stretch 2 writes. -/
abbrev written2 : List (Ref sig .tc) := [main_v99, main_v100, main_cst_19, main_v101, main_v102, main_v103, main_v104, main_v105, main_v106, main_v107, main_v108, main_v109, main_cst_20, main_v110, main_v111, main_v112, main_cst_21, main_v113, main_v114, main_cst_22, main_v115, main_v116, main_cst_23, main_v117, main_v118, main_v119, main_c_24, main_v120, main_v121, main_c_25, main_v122, main_v123, main_v124, main_v125, main_v126, main_v127, main_v128, main_cst_26, main_v129, main_v130, main_v131, main_v132, main_v133, main_v134, main_v135, main_v136, main_c_27, main_v137, main_v138, main_c_28, main_v139, main_v140, main_v141, main_v142, main_v143, main_v144, main_v145, main_cst_29, main_v146, main_v147]
set_option maxRecDepth 8192 in
set_option maxHeartbeats 4000000 in
theorem writes2 : (main_part2_ops0 : List (HloOp τ sig (Elt F))).Forall fun op => op.writes ⊆ ((written2).map (Proc.devRef (τ := τ) .tc)).toFinset := by
  simp only [main_part2_ops0, List.Forall]
  repeat' apply And.intro
  all_goals (simp only [nullary_writes, unary_writes, binary_writes, ternary_writes, reshape_writes, nary_writes, Finset.singleton_subset_iff, List.mem_toFinset]; exact List.mem_map_of_mem (by decide))
/-- A buffer stretch 2 does not write keeps its contents through it. -/
theorem keep2 (V0 : Valuation τ sig (Elt F)) (r : Ref sig .tc) (h : r ∉ written2) :
    after main_part2_ops0 V0 (Proc.devRef .tc r) = V0 (Proc.devRef .tc r) :=
  after_of_writes_sub main_part2_ops0 _ writes2 h

/-- The buffers stretch 3 writes. -/
abbrev written3 : List (Ref sig .tc) := [main_v148, main_v149, main_v150, main_v151, main_v152, main_cst_30, main_v153, main_v154, main_v155, main_v156, main_v157, main_v158, main_cst_31, main_v159, main_v160, main_v161, main_v162, main_cst_32, main_v163, main_v164, main_v165, main_v166]
set_option maxRecDepth 8192 in
set_option maxHeartbeats 4000000 in
theorem writes3 : (main_part3_ops0 : List (HloOp τ sig (Elt F))).Forall fun op => op.writes ⊆ ((written3).map (Proc.devRef (τ := τ) .tc)).toFinset := by
  simp only [main_part3_ops0, List.Forall]
  repeat' apply And.intro
  all_goals (simp only [nullary_writes, unary_writes, binary_writes, ternary_writes, reshape_writes, nary_writes, Finset.singleton_subset_iff, List.mem_toFinset]; exact List.mem_map_of_mem (by decide))
/-- A buffer stretch 3 does not write keeps its contents through it. -/
theorem keep3 (V0 : Valuation τ sig (Elt F)) (r : Ref sig .tc) (h : r ∉ written3) :
    after main_part3_ops0 V0 (Proc.devRef .tc r) = V0 (Proc.devRef .tc r) :=
  after_of_writes_sub main_part3_ops0 _ writes3 h

/-! ## Stretch 0: the first convolution up to `L T₁` -/

set_option maxRecDepth 8192 in
set_option maxHeartbeats 2000000 in
theorem s0_t1 (V0 : Valuation τ sig (Elt F)) :
    after main_part0_ops0 V0 (no_index (Proc.devRef .tc main_v31)) = lhat (ends ![0, 0, 0] slices_S3x2x800000_S1x1x800000_0_0_0 (V0 (Proc.devRef .tc main_arg1))) (ends ![0, 1, 0] slices_S3x2x800000_S1x1x800000_0_1_0 (V0 (Proc.devRef .tc main_arg1))) (wts ![0, 0] slices_S3x800000_S1x800000_0_0 (V0 (Proc.devRef .tc main_arg2))) (V0 (Proc.devRef .tc main_arg0)) := by
  simp only [main_part0_ops0]
  after_results_simp
  all_goals rfl

set_option maxRecDepth 8192 in
set_option maxHeartbeats 2000000 in
theorem s0_lt1 (V0 : Valuation τ sig (Elt F)) :
    after main_part0_ops0 V0 (no_index (Proc.devRef .tc main_v48)) = lhat (ends ![0, 0, 0] slices_S3x2x800000_S1x1x800000_0_0_0 (V0 (Proc.devRef .tc main_arg1))) (ends ![0, 1, 0] slices_S3x2x800000_S1x1x800000_0_1_0 (V0 (Proc.devRef .tc main_arg1))) (wts ![0, 0] slices_S3x800000_S1x800000_0_0 (V0 (Proc.devRef .tc main_arg2))) (lhat (ends ![0, 0, 0] slices_S3x2x800000_S1x1x800000_0_0_0 (V0 (Proc.devRef .tc main_arg1))) (ends ![0, 1, 0] slices_S3x2x800000_S1x1x800000_0_1_0 (V0 (Proc.devRef .tc main_arg1))) (wts ![0, 0] slices_S3x800000_S1x800000_0_0 (V0 (Proc.devRef .tc main_arg2))) (V0 (Proc.devRef .tc main_arg0))) := by
  simp only [main_part0_ops0]
  after_results_simp
  all_goals rfl

set_option maxRecDepth 8192 in
set_option maxHeartbeats 2000000 in
theorem s0_two (V0 : Valuation τ sig (Elt F)) :
    after main_part0_ops0 V0 (no_index (Proc.devRef .tc main_cst_8)) = constant S_ .f32 0x40000000#32 := by
  simp only [main_part0_ops0]
  after_results_simp
  all_goals rfl

/-! ## Stretch 1: the first convolution's second term; the second convolution up to its aggregate -/

set_option maxRecDepth 8192 in
set_option maxHeartbeats 2000000 in
theorem s1_t2 (V0 : Valuation τ sig (Elt F)) :
    after main_part1_ops0 V0 (no_index (Proc.devRef .tc main_v51)) = second (V0 (Proc.devRef .tc main_cst_8)) (V0 (Proc.devRef .tc main_v48)) (V0 (Proc.devRef .tc main_arg0)) := by
  simp only [main_part1_ops0]
  after_results_simp
  all_goals rfl

set_option maxRecDepth 8192 in
set_option maxHeartbeats 2000000 in
theorem s1_t1 (V0 : Valuation τ sig (Elt F)) :
    after main_part1_ops0 V0 (no_index (Proc.devRef .tc main_v83)) = lhat (ends ![1, 0, 0] slices_S3x2x800000_S1x1x800000_1_0_0 (V0 (Proc.devRef .tc main_arg1))) (ends ![1, 1, 0] slices_S3x2x800000_S1x1x800000_1_1_0 (V0 (Proc.devRef .tc main_arg1))) (wts ![1, 0] slices_S3x800000_S1x800000_1_0 (V0 (Proc.devRef .tc main_arg2))) (V0 (Proc.devRef .tc main_arg0)) := by
  simp only [main_part1_ops0]
  after_results_simp
  all_goals rfl

set_option maxRecDepth 8192 in
set_option maxHeartbeats 2000000 in
theorem s1_agg (V0 : Valuation τ sig (Elt F)) :
    after main_part1_ops0 V0 (no_index (Proc.devRef .tc main_v96)) = agg (ends ![1, 0, 0] slices_S3x2x800000_S1x1x800000_1_0_0 (V0 (Proc.devRef .tc main_arg1))) (ends ![1, 1, 0] slices_S3x2x800000_S1x1x800000_1_1_0 (V0 (Proc.devRef .tc main_arg1))) (wts ![1, 0] slices_S3x800000_S1x800000_1_0 (V0 (Proc.devRef .tc main_arg2))) (lhat (ends ![1, 0, 0] slices_S3x2x800000_S1x1x800000_1_0_0 (V0 (Proc.devRef .tc main_arg1))) (ends ![1, 1, 0] slices_S3x2x800000_S1x1x800000_1_1_0 (V0 (Proc.devRef .tc main_arg1))) (wts ![1, 0] slices_S3x800000_S1x800000_1_0 (V0 (Proc.devRef .tc main_arg2))) (V0 (Proc.devRef .tc main_arg0))) := by
  simp only [main_part1_ops0]
  after_results_simp
  all_goals rfl

set_option maxRecDepth 8192 in
set_option maxHeartbeats 2000000 in
theorem s1_diag (V0 : Valuation τ sig (Elt F)) :
    after main_part1_ops0 V0 (no_index (Proc.devRef .tc main_v98)) = diagb (diagv (ends ![1, 0, 0] slices_S3x2x800000_S1x1x800000_1_0_0 (V0 (Proc.devRef .tc main_arg1))) (wts ![1, 0] slices_S3x800000_S1x800000_1_0 (V0 (Proc.devRef .tc main_arg2)))) := by
  simp only [main_part1_ops0]
  after_results_simp
  all_goals rfl

/-! ## Stretch 2: the second convolution's second term; the third convolution up to its messages -/

set_option maxRecDepth 8192 in
set_option maxHeartbeats 2000000 in
theorem s2_t2 (V0 : Valuation τ sig (Elt F)) :
    after main_part2_ops0 V0 (no_index (Proc.devRef .tc main_v103)) = second (constant S_ .f32 0x40000000#32) (addf (V0 (Proc.devRef .tc main_v96)) (mulf (V0 (Proc.devRef .tc main_v98)) (V0 (Proc.devRef .tc main_v83)))) (V0 (Proc.devRef .tc main_arg0)) := by
  simp only [main_part2_ops0]
  after_results_simp
  all_goals rfl

set_option maxRecDepth 8192 in
set_option maxHeartbeats 2000000 in
theorem s2_t1 (V0 : Valuation τ sig (Elt F)) :
    after main_part2_ops0 V0 (no_index (Proc.devRef .tc main_v135)) = lhat (ends ![2, 0, 0] slices_S3x2x800000_S1x1x800000_2_0_0 (V0 (Proc.devRef .tc main_arg1))) (ends ![2, 1, 0] slices_S3x2x800000_S1x1x800000_2_1_0 (V0 (Proc.devRef .tc main_arg1))) (wts ![2, 0] slices_S3x800000_S1x800000_2_0 (V0 (Proc.devRef .tc main_arg2))) (V0 (Proc.devRef .tc main_arg0)) := by
  simp only [main_part2_ops0]
  after_results_simp
  all_goals rfl

set_option maxRecDepth 8192 in
set_option maxHeartbeats 2000000 in
theorem s2_msg (V0 : Valuation τ sig (Elt F)) :
    after main_part2_ops0 V0 (no_index (Proc.devRef .tc main_v145)) = msg (ends ![2, 0, 0] slices_S3x2x800000_S1x1x800000_2_0_0 (V0 (Proc.devRef .tc main_arg1))) (wts ![2, 0] slices_S3x800000_S1x800000_2_0 (V0 (Proc.devRef .tc main_arg2))) (lhat (ends ![2, 0, 0] slices_S3x2x800000_S1x1x800000_2_0_0 (V0 (Proc.devRef .tc main_arg1))) (ends ![2, 1, 0] slices_S3x2x800000_S1x1x800000_2_1_0 (V0 (Proc.devRef .tc main_arg1))) (wts ![2, 0] slices_S3x800000_S1x800000_2_0 (V0 (Proc.devRef .tc main_arg2))) (V0 (Proc.devRef .tc main_arg0))) := by
  simp only [main_part2_ops0]
  after_results_simp
  all_goals rfl

set_option maxRecDepth 8192 in
set_option maxHeartbeats 2000000 in
theorem s2_zero (V0 : Valuation τ sig (Elt F)) :
    after main_part2_ops0 V0 (no_index (Proc.devRef .tc main_v146)) = broadcastInDim S50000x128 ![] bcast_S_S50000x128 (constant S_ .f32 0x00000000#32) := by
  simp only [main_part2_ops0]
  after_results_simp
  all_goals rfl

set_option maxRecDepth 8192 in
set_option maxHeartbeats 2000000 in
theorem s2_tgt (V0 : Valuation τ sig (Elt F)) :
    after main_part2_ops0 V0 (no_index (Proc.devRef .tc main_v147)) = broadcastInDim S800000x1 ![0] bcast_S800000_S800000x1_0 ((ends ![2, 1, 0] slices_S3x2x800000_S1x1x800000_2_1_0 (V0 (Proc.devRef .tc main_arg1)))) := by
  simp only [main_part2_ops0]
  after_results_simp
  all_goals rfl

set_option maxRecDepth 8192 in
set_option maxHeartbeats 2000000 in
theorem s2_diag (V0 : Valuation τ sig (Elt F)) :
    after main_part2_ops0 V0 (no_index (Proc.devRef .tc main_v118)) = diagv (ends ![2, 0, 0] slices_S3x2x800000_S1x1x800000_2_0_0 (V0 (Proc.devRef .tc main_arg1))) (wts ![2, 0] slices_S3x800000_S1x800000_2_0 (V0 (Proc.devRef .tc main_arg2))) := by
  simp only [main_part2_ops0]
  after_results_simp
  all_goals rfl

/-! ## Stretch 3: the third convolution's second term, and the three operands of the region -/

set_option maxRecDepth 8192 in
set_option maxHeartbeats 2000000 in
theorem s3_feat (V0 : Valuation τ sig (Elt F)) :
    after main_part3_ops0 V0 (no_index (Proc.devRef .tc main_v165))
      = truncf .bf16 (join7 (V0 (Proc.devRef .tc main_arg0)) (V0 (Proc.devRef .tc main_v31)) (V0 (Proc.devRef .tc main_v51)) (V0 (Proc.devRef .tc main_v83)) (V0 (Proc.devRef .tc main_v103)) (V0 (Proc.devRef .tc main_v135))
          (second (constant S_ .f32 0x40000000#32)
            (addf (Host.scatterAdd scatter_S50000x128_S800000x1_S800000x128_1_0_0_1 (V0 (Proc.devRef .tc main_v146)) (V0 (Proc.devRef .tc main_v147)) (V0 (Proc.devRef .tc main_v145)))
              (mulf (diagb (V0 (Proc.devRef .tc main_v118))) (V0 (Proc.devRef .tc main_v135)))) (V0 (Proc.devRef .tc main_arg0)))) bitsLt_bf16_f32 := by
  simp only [main_part3_ops0]
  simp (disch := decide) only [after_cons, after_nil,
      nullary_result', unary_result', binary_result', ternary_result', reshape_result', nary7_result',
      nullary_result_ne', unary_result_ne', binary_result_ne', ternary_result_ne', reshape_result_ne', nary_result_ne']
  all_goals rfl
set_option maxRecDepth 8192 in
set_option maxHeartbeats 2000000 in
theorem s3_wts (V0 : Valuation τ sig (Elt F)) :
    after main_part3_ops0 V0 (no_index (Proc.devRef .tc main_v166)) = truncf .bf16 (wcat (V0 (Proc.devRef .tc main_arg3))) bitsLt_bf16_f32 := by
  simp only [main_part3_ops0]
  after_results_simp
  all_goals rfl

set_option maxRecDepth 8192 in
set_option maxHeartbeats 2000000 in
theorem s3_bias (V0 : Valuation τ sig (Elt F)) :
    after main_part3_ops0 V0 (no_index (Proc.devRef .tc main_v164)) = brow (V0 (Proc.devRef .tc main_arg4)) := by
  simp only [main_part3_ops0]
  after_results_simp
  all_goals rfl

end Cert.KernelIdeal.Prefix

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«176885_j5111011082637_1_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.KernelValue.lean ====
/-
  What the idealized kernel computes: its result array as one function of the three arrays the region stages.

  Entry (r, j) of the 50000 × 128 result is (∑ k < 896, A (r, k) · B (k, j)) + b (0, j), where A is the 50000 × 896
  matrix of joined Chebyshev terms, B the 896 × 128 matrix of joined weights and b the bias row, as the host
  operations before the region leave them.  Grid point t writes rows [2000 t, 2000 t + 2000): its block of A is
  those rows, its blocks of B and b are the whole arrays; the 25 blocks of rows cover the result.
-/
import proofs.«176885_j5111011082637_1_alg».proof.Proof.FrameIdeal
import proofs.«176885_j5111011082637_1_alg».proof.Proof.PrefixIdeal
import proofs.«176885_j5111011082637_1_alg».proof.Proof.LibDenseRow
import proofs.«176885_j5111011082637_1_alg».proof.Proof.LibStretches
import Idealize.ShloMosaic.Lib.Pipeline.Value

set_option maxRecDepth 16384

noncomputable section

namespace Cert.KernelIdeal.KValue

open Cert.KernelIdeal Cert.KernelIdeal.Gen Cert.KernelIdeal.Frame Cert.KernelIdeal.Prefix
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The body's value at an entry -/

/-- The whole-array function: entry (r, j) is row r of `a0` against column j of `a1`, plus entry j of the row `a2`. -/
def G (a0 : FVec Ideal S50000x896 .bf16) (a1 : FVec Ideal S896x128 .bf16) (a2 : FVec Ideal S1x128 .f32) : FVec Ideal S50000x128 .f32 :=
  fun i => GcnDense.entry a0 a1 a2 (i 0) (i 1)

/-- The body's stored value at (p, q): the block's row p against column q of the weights, plus the bias entry q. -/
theorem pay_apply (x0 : Vec Ideal S2000x896 .bf16) (x1 : Vec Ideal S896x128 .bf16) (x2 : Vec Ideal S1x128 .f32) (p : Fin 2000) (q : Fin 128) :
    k0_pay1 (F := Ideal) x0 x1 x2 (ix2 p q) = GcnDense.entry x0 x1 x2 p q := by
  unfold k0_pay1
  refine (GcnDense.kernel_layer_apply dot_S2000x896_S896x128_S2000x128_1_0_0_1_n_n rfl rfl rfl rfl (fun _ _ => rfl) (fun _ _ => rfl) none
    (shapeCast S2000x896 x0 shapeCasts_S2000x896_S2000x896) (shapeCast S896x128 x1 shapeCasts_S896x128_S896x128) x2
    shapeCasts_S1x128_S1x128 broadcasts_S1x128_S2000x128 p q).trans ?_
  rw [shapeCast_self, shapeCast_self]

/-! ## From blocks to the array -/

theorem hz : (![0, 0] : Fin 2 → Nat) = fun _ => 0 := funext fun a => by fin_cases a <;> rfl

/-- The index maps over the grid: the feature window and the result window move together down the rows; the weight and
    bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G` of the staged arrays. -/
theorem flushed3_eq (c : Dev nD) (t : Fin cfg0.N) :
    (dats m 0 c).flushed 3 t = ((cfg0.win 3).blk t).view.read (Elt Ideal) (G (V m c main_v165) (V m c main_v166) (V m c main_v164)) := by
  show (cfg0.win 3).cut (grid0.coords t) ((dats m 0 c).after 3 t) = _
  rw [after0_3]
  unfold out0_3
  rw [View.canon_unit_zero hz]
  simp only [View.ld_unit_zero (S := S2000x896) hz, View.ld_unit_zero (S := S896x128) hz, View.ld_unit_zero (S := S1x128) hz]
  obtain ⟨e00, e01, e10, e11, e20, e21, e30, e31⟩ := idx_facts t
  funext j
  obtain ⟨p, q, rfl⟩ : ∃ (p : Fin 2000) (q : Fin 128), j = ix2 p q := ⟨j 0, j 1, eq_ix2 j⟩
  show k0_pay1 (F := Ideal) (iblk m c 0 t) (iblk m c 1 t) (iblk m c 2 t) (ix2 p q)
    = G (V m c main_v165) (V m c main_v166) (V m c main_v164) (((cfg0.win 3).blk t).view.emb (ix2 p q))
  rw [pay_apply]
  unfold G
  have hq : (((cfg0.win 3).blk t).view.emb (ix2 p q)) 1 = q := Fin.ext (by
    show win0_3.index t (1 : Fin 2) * 128 + 1 * q.val = q.val
    omega)
  rw [hq]
  refine GcnDense.entry_congr _ _ _ _ _ _ p _ q (fun k => ?_) (fun k => ?_) ?_
  · show V m c main_v165 (((cfg0.win 0).blk t).view.emb (ix2 p k)) = V m c main_v165 (ix2 ((((cfg0.win 3).blk t).view.emb (ix2 p q)) 0) k)
    refine congrArg _ (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 896 + 1 * k.val = k.val; omega
  · show V m c main_v166 (((cfg0.win 1).blk t).view.emb (ix2 k q)) = V m c main_v166 (ix2 k q)
    refine congrArg _ (funext fun a => Fin.ext ?_)
    match a with
    | ⟨0, _⟩ => show win0_1.index t (0 : Fin 2) * 896 + 1 * k.val = k.val; omega
    | ⟨1, _⟩ => show win0_1.index t (1 : Fin 2) * 128 + 1 * q.val = q.val; omega
  · show V m c main_v164 (((cfg0.win 2).blk t).view.emb (ix2 (0 : Fin 1) q)) = V m c main_v164 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An index of the result is in point `t`'s block iff each coordinate is in the block's range on its axis. -/
theorem mem_blk3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v167).slice (win0_3.rect t)).set ↔ _
  rw [View.set_slice_whole, Rect.mem_set_unit]
  exact Iff.rfl

/-- Every row of the result lies in the block of the point its row number over 2000 names. -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 2000, by show (i 0).val / 2000 < 25; omega⟩, flush0_3 _, ?_⟩
  rw [mem_blk3]
  obtain ⟨-, -, -, -, -, -, e30, e31⟩ := idx_facts ⟨(i 0).val / 2000, by show (i 0).val / 2000 < 25; omega⟩
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e31]; omega

/-- The result array after the run. -/
theorem final3 (c : Dev nD) : (dats m 0 c).arrAt 3 cfg0.N = G (V m c main_v165) (V m c main_v166) (V m c main_v164) :=
  (dats m 0 c).arrAt_eq_of_cover 3 _ (fun t _ => flushed3_eq m c t) cover3

/-! ## The staged arrays, from the launch contents -/

/-- The memory at the region's entry, stretch by stretch. -/
theorem V_split (c : Dev nD) (b : Ref sig .tc) :
    V m c b = after main_part3_ops0 (after main_part2_ops0 (after main_part1_ops0 (after main_part0_ops0 (fun b => m (c, b))))) (Proc.devRef .tc b) := by
  show after (List.flatten (stretches (F := Ideal))) (fun b => m (c, b)) (Proc.devRef .tc b) = _
  simp only [stretches, List.flatten_cons, List.flatten_nil, List.append_nil, Stretches.after_append]

/-- The staged feature matrix: x and the two further Chebyshev terms of each convolution, joined along the columns. -/
theorem V_feat (c : Dev nD) : V m c main_v165
    = (truncf .bf16 (join7 (F := Ideal) (m ((c : Thread nD τ).loc main_arg0)) (lhat (ends ![0, 0, 0] slices_S3x2x800000_S1x1x800000_0_0_0 (m ((c : Thread nD τ).loc main_arg1))) (ends ![0, 1, 0] slices_S3x2x800000_S1x1x800000_0_1_0 (m ((c : Thread nD τ).loc main_arg1))) (wts ![0, 0] slices_S3x800000_S1x800000_0_0 (m ((c : Thread nD τ).loc main_arg2))) (m ((c : Thread nD τ).loc main_arg0))) (second (constant S_ .f32 0x40000000#32) (lhat (ends ![0, 0, 0] slices_S3x2x800000_S1x1x800000_0_0_0 (m ((c : Thread nD τ).loc main_arg1))) (ends ![0, 1, 0] slices_S3x2x800000_S1x1x800000_0_1_0 (m ((c : Thread nD τ).loc main_arg1))) (wts ![0, 0] slices_S3x800000_S1x800000_0_0 (m ((c : Thread nD τ).loc main_arg2))) (lhat (ends ![0, 0, 0] slices_S3x2x800000_S1x1x800000_0_0_0 (m ((c : Thread nD τ).loc main_arg1))) (ends ![0, 1, 0] slices_S3x2x800000_S1x1x800000_0_1_0 (m ((c : Thread nD τ).loc main_arg1))) (wts ![0, 0] slices_S3x800000_S1x800000_0_0 (m ((c : Thread nD τ).loc main_arg2))) (m ((c : Thread nD τ).loc main_arg0)))) (m ((c : Thread nD τ).loc main_arg0))) (lhat (ends ![1, 0, 0] slices_S3x2x800000_S1x1x800000_1_0_0 (m ((c : Thread nD τ).loc main_arg1))) (ends ![1, 1, 0] slices_S3x2x800000_S1x1x800000_1_1_0 (m ((c : Thread nD τ).loc main_arg1))) (wts ![1, 0] slices_S3x800000_S1x800000_1_0 (m ((c : Thread nD τ).loc main_arg2))) (m ((c : Thread nD τ).loc main_arg0))) (second (constant S_ .f32 0x40000000#32) (lhat (ends ![1, 0, 0] slices_S3x2x800000_S1x1x800000_1_0_0 (m ((c : Thread nD τ).loc main_arg1))) (ends ![1, 1, 0] slices_S3x2x800000_S1x1x800000_1_1_0 (m ((c : Thread nD τ).loc main_arg1))) (wts ![1, 0] slices_S3x800000_S1x800000_1_0 (m ((c : Thread nD τ).loc main_arg2))) (lhat (ends ![1, 0, 0] slices_S3x2x800000_S1x1x800000_1_0_0 (m ((c : Thread nD τ).loc main_arg1))) (ends ![1, 1, 0] slices_S3x2x800000_S1x1x800000_1_1_0 (m ((c : Thread nD τ).loc main_arg1))) (wts ![1, 0] slices_S3x800000_S1x800000_1_0 (m ((c : Thread nD τ).loc main_arg2))) (m ((c : Thread nD τ).loc main_arg0)))) (m ((c : Thread nD τ).loc main_arg0))) (lhat (ends ![2, 0, 0] slices_S3x2x800000_S1x1x800000_2_0_0 (m ((c : Thread nD τ).loc main_arg1))) (ends ![2, 1, 0] slices_S3x2x800000_S1x1x800000_2_1_0 (m ((c : Thread nD τ).loc main_arg1))) (wts ![2, 0] slices_S3x800000_S1x800000_2_0 (m ((c : Thread nD τ).loc main_arg2))) (m ((c : Thread nD τ).loc main_arg0))) (second (constant S_ .f32 0x40000000#32) (lhat (ends ![2, 0, 0] slices_S3x2x800000_S1x1x800000_2_0_0 (m ((c : Thread nD τ).loc main_arg1))) (ends ![2, 1, 0] slices_S3x2x800000_S1x1x800000_2_1_0 (m ((c : Thread nD τ).loc main_arg1))) (wts ![2, 0] slices_S3x800000_S1x800000_2_0 (m ((c : Thread nD τ).loc main_arg2))) (lhat (ends ![2, 0, 0] slices_S3x2x800000_S1x1x800000_2_0_0 (m ((c : Thread nD τ).loc main_arg1))) (ends ![2, 1, 0] slices_S3x2x800000_S1x1x800000_2_1_0 (m ((c : Thread nD τ).loc main_arg1))) (wts ![2, 0] slices_S3x800000_S1x800000_2_0 (m ((c : Thread nD τ).loc main_arg2))) (m ((c : Thread nD τ).loc main_arg0)))) (m ((c : Thread nD τ).loc main_arg0)))) bitsLt_bf16_f32 : FVec Ideal S50000x896 .bf16) := by
  rw [V_split]
  simp only [s3_feat, s2_t2, s2_t1, s2_msg, s2_zero, s2_tgt, s2_diag, s1_t2, s1_t1, s1_agg, s1_diag, s0_t1, s0_lt1, s0_two,
    keep0 _ main_arg0 (by decide),
    keep0 _ main_arg1 (by decide),
    keep0 _ main_arg2 (by decide),
    keep0 _ main_arg3 (by decide),
    keep0 _ main_arg4 (by decide),
    keep1 _ main_arg0 (by decide),
    keep1 _ main_arg1 (by decide),
    keep1 _ main_arg2 (by decide),
    keep1 _ main_arg3 (by decide),
    keep1 _ main_arg4 (by decide),
    keep2 _ main_arg0 (by decide),
    keep2 _ main_arg1 (by decide),
    keep2 _ main_arg2 (by decide),
    keep2 _ main_arg3 (by decide),
    keep2 _ main_arg4 (by decide),
    keep1 _ main_v31 (by decide),
    keep2 _ main_v31 (by decide),
    keep2 _ main_v51 (by decide),
    keep2 _ main_v83 (by decide)]
  rfl

/-- The staged weight matrix. -/
theorem V_wts (c : Dev nD) : V m c main_v166 = (truncf .bf16 (wcat (F := Ideal) (m ((c : Thread nD τ).loc main_arg3))) bitsLt_bf16_f32 : FVec Ideal S896x128 .bf16) := by
  rw [V_split]
  simp only [s3_wts, keep0 _ main_arg3 (by decide), keep1 _ main_arg3 (by decide), keep2 _ main_arg3 (by decide)]

/-- The staged bias row. -/
theorem V_bias (c : Dev nD) : V m c main_v164 = (brow (F := Ideal) (m ((c : Thread nD τ).loc main_arg4)) : FVec Ideal S1x128 .f32) := by
  rw [V_split]
  simp only [s3_bias, keep0 _ main_arg4 (by decide), keep1 _ main_arg4 (by decide), keep2 _ main_arg4 (by decide)]

/-! ## The run -/

/-- Every weakly fair execution of the idealized kernel terminates with the result array at `G` of the staged arrays and
    the argument arrays as launched. -/
theorem run : θ_run defs (onTc (τ := τ) (main (F := Ideal))) ⟨m, fun _ => 0, ρ⟩ fun r => ∀ c : Dev nD,
      r.2.mem ((c : Thread nD τ).loc main_v167) = G (V m c main_v165) (V m c main_v166) (V m c main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.KValue

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.LibChebFold.lean ====
/-
  Seven column blocks contracted at once against three separate three-term products.

  Let a row of 7·C entries be seven blocks of C entries and a column of 7·C weights seven blocks likewise.  Suppose the
  first block of the row is a real vector x, and the first block of the column is the entrywise sum 0 + (u₀ + u₁ + u₂) of
  three real vectors.  Then the one contraction over all 7·C positions, plus the summed bias 0 + (b₀ + b₁ + b₂), equals
  the sum, started from 0, of the three terms  (x·uᵢ + block(2i+1) + block(2i+2)) + bᵢ,  where block(p) is the contraction
  of the row's p-th block with the column's.  The only step that is not commutativity and associativity of the addition
  is x q · (u₀ q + u₁ q + u₂ q) = x q · u₀ q + x q · u₁ q + x q · u₂ q, which holds because these entries are reals; the
  other six blocks may hold any extended reals.
-/
import Mathlib.Data.EReal.Basic
import Mathlib.Data.EReal.Operations
import Mathlib.Tactic.Abel
import Mathlib.Tactic.Ring
import proofs.«176885_j5111011082637_1_alg».proof.Proof.LibSumBlocks

open scoped BigOperators

namespace Idealize.ShloMosaic.ChebFold

open Idealize.ShloMosaic.SumBlocks

/-- Position `q` of block `p` among `7 · C` positions. -/
abbrev blk {C : ℕ} (p : Fin 7) (q : Fin C) : Fin (7 * C) := ⟨p.val * C + q.val, idx_lt p q⟩

/-- A real factor distributes over a sum of three reals, inside the extended reals. -/
theorem coe_mul_zero_add_three (a u v w : ℝ) :
    (a : EReal) * ((0 : EReal) + ((u : EReal) + (v : EReal) + (w : EReal)))
      = (a : EReal) * (u : EReal) + (a : EReal) * (v : EReal) + (a : EReal) * (w : EReal) := by
  rw [zero_add, ← EReal.coe_add, ← EReal.coe_add, ← EReal.coe_mul, ← EReal.coe_mul, ← EReal.coe_mul, ← EReal.coe_mul,
    ← EReal.coe_add, ← EReal.coe_add]
  exact congrArg _ (by ring)

/-- The folded contraction is the sum of the three unfolded ones. -/
theorem fold7 {C : ℕ} (X W : Fin (7 * C) → EReal) (x : Fin C → ℝ) (u : Fin 3 → Fin C → ℝ) (b : Fin 3 → EReal)
    (hx : ∀ q, X (blk 0 q) = (x q : EReal))
    (hu : ∀ q, W (blk 0 q) = (0 : EReal) + ∑ i : Fin 3, (u i q : EReal)) :
    (∑ k, X k * W k) + ((0 : EReal) + ∑ i : Fin 3, b i)
      = (((0 : EReal)
          + ((((∑ q, (x q : EReal) * (u 0 q : EReal)) + ∑ q, X (blk 1 q) * W (blk 1 q)) + ∑ q, X (blk 2 q) * W (blk 2 q)) + b 0))
          + ((((∑ q, (x q : EReal) * (u 1 q : EReal)) + ∑ q, X (blk 3 q) * W (blk 3 q)) + ∑ q, X (blk 4 q) * W (blk 4 q)) + b 1))
          + ((((∑ q, (x q : EReal) * (u 2 q : EReal)) + ∑ q, X (blk 5 q) * W (blk 5 q)) + ∑ q, X (blk 6 q) * W (blk 6 q)) + b 2) := by
  have h0 : ∑ q : Fin C, X (blk 0 q) * W (blk 0 q)
      = (∑ q, (x q : EReal) * (u 0 q : EReal)) + (∑ q, (x q : EReal) * (u 1 q : EReal)) + ∑ q, (x q : EReal) * (u 2 q : EReal) := by
    rw [← Finset.sum_add_distrib, ← Finset.sum_add_distrib]
    refine Finset.sum_congr rfl fun q _ => ?_
    rw [hx, hu, Fin.sum_univ_three]
    exact coe_mul_zero_add_three _ _ _ _
  rw [sum_blocks (A := 7) (B := C) (fun k => X k * W k), Fin.sum_univ_seven]
  change (∑ q : Fin C, X (blk 0 q) * W (blk 0 q)) + (∑ q : Fin C, X (blk 1 q) * W (blk 1 q)) + (∑ q : Fin C, X (blk 2 q) * W (blk 2 q))
      + (∑ q : Fin C, X (blk 3 q) * W (blk 3 q)) + (∑ q : Fin C, X (blk 4 q) * W (blk 4 q)) + (∑ q : Fin C, X (blk 5 q) * W (blk 5 q))
      + (∑ q : Fin C, X (blk 6 q) * W (blk 6 q)) + _ = _
  rw [h0, Fin.sum_univ_three, zero_add, zero_add]
  abel

/-- The same, with the seven blocks of the row and of the column named: the first block of the row holds reals, the first
    block of the column is 0 plus the sum of three real vectors; the other blocks are arbitrary. -/
theorem fold7_blocks {C : ℕ} (X W : Fin (7 * C) → EReal) (Xb Wb : Fin 7 → Fin C → EReal) (U : Fin 3 → Fin C → EReal) (b : Fin 3 → EReal)
    (hX : ∀ p q, X (blk p q) = Xb p q) (hW : ∀ (p : Fin 7) q, p ≠ 0 → W (blk p q) = Wb p q)
    (hW0 : ∀ q, W (blk 0 q) = (0 : EReal) + ∑ i : Fin 3, U i q)
    (hx : ∀ q, ∃ r : ℝ, Xb 0 q = (r : EReal)) (hu : ∀ i q, ∃ r : ℝ, U i q = (r : EReal)) :
    (∑ k, X k * W k) + ((0 : EReal) + ∑ i : Fin 3, b i)
      = (((0 : EReal)
          + ((((∑ q, Xb 0 q * U 0 q) + ∑ q, Xb 1 q * Wb 1 q) + ∑ q, Xb 2 q * Wb 2 q) + b 0))
          + ((((∑ q, Xb 0 q * U 1 q) + ∑ q, Xb 3 q * Wb 3 q) + ∑ q, Xb 4 q * Wb 4 q) + b 1))
          + ((((∑ q, Xb 0 q * U 2 q) + ∑ q, Xb 5 q * Wb 5 q) + ∑ q, Xb 6 q * Wb 6 q) + b 2) := by
  choose x hx using hx
  choose u hu using hu
  rw [fold7 X W x u b (fun q => (hX 0 q).trans (hx q)) (fun q => by rw [hW0 q]; simp only [hu])]
  simp only [hX, hW _ _ (by decide : (1 : Fin 7) ≠ 0), hW _ _ (by decide : (2 : Fin 7) ≠ 0), hW _ _ (by decide : (3 : Fin 7) ≠ 0),
    hW _ _ (by decide : (4 : Fin 7) ≠ 0), hW _ _ (by decide : (5 : Fin 7) ≠ 0), hW _ _ (by decide : (6 : Fin 7) ≠ 0), hx, hu]

end Idealize.ShloMosaic.ChebFold
-- ==== Proof.LibChebLayout.lean ====
/-
  Slices of stacked arrays read at an entry.

  A rank-3 table of edge lists [n₀, n₁, E] gives up one list either in one step (slice to [1, 1, E], view as [E]) or in
  two (slice to [1, n₁, E], view as [n₁, E], slice to [1, E], view as [E]); both read entry q of list (o₀, o₁).  A stack
  of matrices [n, a, b] gives up matrix o (slice to [1, a, b], view as [a, b]); a rank-4 stack [n₀, n₁, a, b] gives up
  the stack o₀ (view as [n₁, a, b]), its column o₁ of matrices (slice to [n₀, 1, a, b], view as [n₀, a, b]), or two
  columns laid out as rows (slice to [n₀, 2, a, b], view as [n₀ · 2 · a, b]).  A host sum over the leading axis of a
  stack is the initial value plus the sum of the stack's entries.  Two matrices stacked along the rows read the upper
  one above its row count and the lower one below.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Idealize.ShloMosaic.ChebLayout

open Idealize.ShloMosaic Idealize.ShloMosaic.ValueIdx

variable {α : Type}

/-- One list of an [n₀, n₁, E] table, taken in one step. -/
theorem list_direct {n0 n1 E : ℕ} (o0 o1 : ℕ) (h0 : o0 < n0) (h1 : o1 < n1) (a : (⟨3, ![n0, n1, E]⟩ : Shape).Idx → α)
    (hs : (⟨3, ![n0, n1, E]⟩ : Shape).Slices ![o0, o1, 0] ⟨3, ![1, 1, E]⟩) (hc : (⟨3, ![1, 1, E]⟩ : Shape).ShapeCasts ⟨1, ![E]⟩) (q : Fin E) :
    shapeCast ⟨1, ![E]⟩ (extractStridedSlice ⟨3, ![1, 1, E]⟩ ![o0, o1, 0] a hs) hc (ix1 q) = a (ix3 ⟨o0, h0⟩ ⟨o1, h1⟩ q) := by
  refine (shapeCast_apply _ hc (ix1 q) (ix3 (0 : Fin 1) (0 : Fin 1) q) ?_).trans ?_
  · rw [Shape.rowMajor_val_three, Shape.rowMajor_val_one]
    show (0 * 1 + 0) * E + q.val = q.val
    simp
  · refine extractStridedSlice_apply _ a hs _ _ (fun x => ?_)
    match x with
    | ⟨0, _⟩ => show o0 = o0 + 0; rfl
    | ⟨1, _⟩ => show o1 = o1 + 0; rfl
    | ⟨2, _⟩ => show q.val = 0 + q.val; rw [Nat.zero_add]

/-- One list of an [n₀, n₁, E] table, taken in two steps. -/
theorem list_twostep {n0 n1 E : ℕ} (o0 o1 : ℕ) (h0 : o0 < n0) (h1 : o1 < n1) (a : (⟨3, ![n0, n1, E]⟩ : Shape).Idx → α)
    (hs1 : (⟨3, ![n0, n1, E]⟩ : Shape).Slices ![o0, 0, 0] ⟨3, ![1, n1, E]⟩) (hc1 : (⟨3, ![1, n1, E]⟩ : Shape).ShapeCasts ⟨2, ![n1, E]⟩)
    (hs2 : (⟨2, ![n1, E]⟩ : Shape).Slices ![o1, 0] ⟨2, ![1, E]⟩) (hc2 : (⟨2, ![1, E]⟩ : Shape).ShapeCasts ⟨1, ![E]⟩) (q : Fin E) :
    shapeCast ⟨1, ![E]⟩ (extractStridedSlice ⟨2, ![1, E]⟩ ![o1, 0]
        (shapeCast ⟨2, ![n1, E]⟩ (extractStridedSlice ⟨3, ![1, n1, E]⟩ ![o0, 0, 0] a hs1) hc1) hs2) hc2 (ix1 q)
      = a (ix3 ⟨o0, h0⟩ ⟨o1, h1⟩ q) := by
  rw [shapeCast_1a_a_apply]
  refine (extractStridedSlice_apply _ _ hs2 _ (ix2 ⟨o1, h1⟩ q) (fun x => ?_)).trans ?_
  · match x with
    | ⟨0, _⟩ => show o1 = o1 + 0; rfl
    | ⟨1, _⟩ => show q.val = 0 + q.val; rw [Nat.zero_add]
  rw [shapeCast_1ab_ab_apply]
  refine extractStridedSlice_apply _ a hs1 _ _ (fun x => ?_)
  match x with
  | ⟨0, _⟩ => show o0 = o0 + 0; rfl
  | ⟨1, _⟩ => show o1 = 0 + o1; rw [Nat.zero_add]
  | ⟨2, _⟩ => show q.val = 0 + q.val; rw [Nat.zero_add]

/-- One row of an [n, E] table: slice to [1, E], view as [E]. -/
theorem row_of {n E : ℕ} (o : ℕ) (ho : o < n) (a : (⟨2, ![n, E]⟩ : Shape).Idx → α)
    (hs : (⟨2, ![n, E]⟩ : Shape).Slices ![o, 0] ⟨2, ![1, E]⟩) (hc : (⟨2, ![1, E]⟩ : Shape).ShapeCasts ⟨1, ![E]⟩) (q : Fin E) :
    shapeCast ⟨1, ![E]⟩ (extractStridedSlice ⟨2, ![1, E]⟩ ![o, 0] a hs) hc (ix1 q) = a (ix2 ⟨o, ho⟩ q) := by
  rw [shapeCast_1a_a_apply]
  refine extractStridedSlice_apply _ a hs _ _ (fun x => ?_)
  match x with
  | ⟨0, _⟩ => show o = o + 0; rfl
  | ⟨1, _⟩ => show q.val = 0 + q.val; rw [Nat.zero_add]

/-- Matrix `o` of a stack [n, a, b]: slice to [1, a, b], view as [a, b]. -/
theorem mat_of_stack {n a b : ℕ} (o : ℕ) (ho : o < n) (w : (⟨3, ![n, a, b]⟩ : Shape).Idx → α)
    (hs : (⟨3, ![n, a, b]⟩ : Shape).Slices ![o, 0, 0] ⟨3, ![1, a, b]⟩) (hc : (⟨3, ![1, a, b]⟩ : Shape).ShapeCasts ⟨2, ![a, b]⟩)
    (k : Fin a) (j : Fin b) :
    shapeCast ⟨2, ![a, b]⟩ (extractStridedSlice ⟨3, ![1, a, b]⟩ ![o, 0, 0] w hs) hc (ix2 k j) = w (ix3 ⟨o, ho⟩ k j) := by
  rw [shapeCast_1ab_ab_apply]
  refine extractStridedSlice_apply _ w hs _ _ (fun x => ?_)
  match x with
  | ⟨0, _⟩ => show o = o + 0; rfl
  | ⟨1, _⟩ => show k.val = 0 + k.val; rw [Nat.zero_add]
  | ⟨2, _⟩ => show j.val = 0 + j.val; rw [Nat.zero_add]

/-- Stack `o` of a rank-4 stack [n₀, n₁, a, b]: slice to [1, n₁, a, b], view as [n₁, a, b]. -/
theorem stack_of_4 {n0 n1 a b : ℕ} (o : ℕ) (ho : o < n0) (w : (⟨4, ![n0, n1, a, b]⟩ : Shape).Idx → α)
    (hs : (⟨4, ![n0, n1, a, b]⟩ : Shape).Slices ![o, 0, 0, 0] ⟨4, ![1, n1, a, b]⟩)
    (hc : (⟨4, ![1, n1, a, b]⟩ : Shape).ShapeCasts ⟨3, ![n1, a, b]⟩) (s : Fin n1) (k : Fin a) (j : Fin b) :
    shapeCast ⟨3, ![n1, a, b]⟩ (extractStridedSlice ⟨4, ![1, n1, a, b]⟩ ![o, 0, 0, 0] w hs) hc (ix3 s k j) = w (ix4 ⟨o, ho⟩ s k j) := by
  rw [shapeCast_1abc_abc_apply]
  refine extractStridedSlice_apply _ w hs _ _ (fun x => ?_)
  match x with
  | ⟨0, _⟩ => show o = o + 0; rfl
  | ⟨1, _⟩ => show s.val = 0 + s.val; rw [Nat.zero_add]
  | ⟨2, _⟩ => show k.val = 0 + k.val; rw [Nat.zero_add]
  | ⟨3, _⟩ => show j.val = 0 + j.val; rw [Nat.zero_add]

/-- Column `o` of a rank-4 stack [n₀, n₁, a, b]: slice to [n₀, 1, a, b], view as [n₀, a, b]. -/
theorem column_of_4 {n0 n1 a b : ℕ} (o : ℕ) (ho : o < n1) (w : (⟨4, ![n0, n1, a, b]⟩ : Shape).Idx → α)
    (hs : (⟨4, ![n0, n1, a, b]⟩ : Shape).Slices ![0, o, 0, 0] ⟨4, ![n0, 1, a, b]⟩)
    (hc : (⟨4, ![n0, 1, a, b]⟩ : Shape).ShapeCasts ⟨3, ![n0, a, b]⟩) (i : Fin n0) (k : Fin a) (j : Fin b) :
    shapeCast ⟨3, ![n0, a, b]⟩ (extractStridedSlice ⟨4, ![n0, 1, a, b]⟩ ![0, o, 0, 0] w hs) hc (ix3 i k j) = w (ix4 i ⟨o, ho⟩ k j) := by
  refine (shapeCast_apply _ hc (ix3 i k j) (ix4 i (0 : Fin 1) k j) ?_).trans ?_
  · rw [Shape.rowMajor_val_four, Shape.rowMajor_val_three]
    show ((i.val * 1 + 0) * a + k.val) * b + j.val = (i.val * a + k.val) * b + j.val
    rw [Nat.mul_one, Nat.add_zero]
  · refine extractStridedSlice_apply _ w hs _ _ (fun x => ?_)
    match x with
    | ⟨0, _⟩ => show i.val = 0 + i.val; rw [Nat.zero_add]
    | ⟨1, _⟩ => show o = o + 0; rfl
    | ⟨2, _⟩ => show k.val = 0 + k.val; rw [Nat.zero_add]
    | ⟨3, _⟩ => show j.val = 0 + j.val; rw [Nat.zero_add]

/-- Two columns, from column `o` on, of a rank-4 stack laid out as the rows of one matrix: row (i · 2 + s) · a + k of the
    [n₀ · 2 · a, b] view is row k of matrix (i, o + s). -/
theorem two_columns_rows {n0 n1 a b R : ℕ} (o : ℕ) (w : (⟨4, ![n0, n1, a, b]⟩ : Shape).Idx → α)
    (hs : (⟨4, ![n0, n1, a, b]⟩ : Shape).Slices ![0, o, 0, 0] ⟨4, ![n0, 2, a, b]⟩)
    (hc : (⟨4, ![n0, 2, a, b]⟩ : Shape).ShapeCasts ⟨2, ![R, b]⟩) (i : Fin n0) (s : Fin 2) (ho : o + s.val < n1) (k : Fin a) (j : Fin b)
    (r : Fin R) (hr : r.val = (i.val * 2 + s.val) * a + k.val) :
    shapeCast ⟨2, ![R, b]⟩ (extractStridedSlice ⟨4, ![n0, 2, a, b]⟩ ![0, o, 0, 0] w hs) hc (ix2 r j) = w (ix4 i ⟨o + s.val, ho⟩ k j) := by
  refine (shapeCast_apply _ hc (ix2 r j) (ix4 i s k j) ?_).trans ?_
  · rw [Shape.rowMajor_val_four, Shape.rowMajor_val_two]
    show ((i.val * 2 + s.val) * a + k.val) * b + j.val = r.val * b + j.val
    rw [hr]
  · refine extractStridedSlice_apply _ w hs _ _ (fun x => ?_)
    match x with
    | ⟨0, _⟩ => show i.val = 0 + i.val; rw [Nat.zero_add]
    | ⟨1, _⟩ => show o + s.val = o + s.val; rfl
    | ⟨2, _⟩ => show k.val = 0 + k.val; rw [Nat.zero_add]
    | ⟨3, _⟩ => show j.val = 0 + j.val; rw [Nat.zero_add]

/-- The host's sum of a stack [n, a, b] over its leading axis, at (k, j): the initial value plus the n entries there. -/
theorem sum_stack_apply {n a b : ℕ} {φ : FTy} {u : Shape} (x : FVec Ideal (⟨3, ![n, a, b]⟩ : Shape) φ) (init : u.Idx → Ideal φ)
    (h' : (⟨3, ![n, a, b]⟩ : Shape).ReducesTo [0] ⟨2, ![a, b]⟩) (h : (⟨3, ![n, a, b]⟩ : Shape).Reduces [0] ⟨2, ![a, b]⟩)
    (hu : 0 < u.numel) (k : Fin a) (j : Fin b) :
    Host.reduceAdd x init h' hu (ix2 k j) = init (Shape.Idx.first hu) + ∑ i : Fin n, x (ix3 i k j) := by
  rw [hostReduceAdd_apply, Ideal.hostReduceAdd_single h' h]
  refine congrArg (init (Shape.Idx.first hu) + ·) (Finset.sum_congr rfl fun i _ => congrArg x ?_)
  funext d
  match d with
  | ⟨0, _⟩ => rfl
  | ⟨1, _⟩ => rfl
  | ⟨2, _⟩ => rfl

/-- The host's sum of the rows of an [n, b] matrix, at j: the initial value plus the n entries of column j. -/
theorem sum_rows_apply {n b : ℕ} {φ : FTy} {u : Shape} (x : FVec Ideal (⟨2, ![n, b]⟩ : Shape) φ) (init : u.Idx → Ideal φ)
    (h' : (⟨2, ![n, b]⟩ : Shape).ReducesTo [0] ⟨1, ![b]⟩) (h : (⟨2, ![n, b]⟩ : Shape).Reduces [0] ⟨1, ![b]⟩)
    (hu : 0 < u.numel) (j : Fin b) :
    Host.reduceAdd x init h' hu (ix1 j) = init (Shape.Idx.first hu) + ∑ i : Fin n, x (ix2 i j) := by
  rw [hostReduceAdd_apply, Ideal.hostReduceAdd_single h' h]
  refine congrArg (init (Shape.Idx.first hu) + ·) (Finset.sum_congr rfl fun i _ => congrArg x ?_)
  funext d
  match d with
  | ⟨0, _⟩ => rfl
  | ⟨1, _⟩ => rfl

/-- Two matrices stacked along the rows, read in the upper one. -/
theorem stack_upper {a1 a2 A b : ℕ} (x1 : (⟨2, ![a1, b]⟩ : Shape).Idx → α) (x2 : (⟨2, ![a2, b]⟩ : Shape).Idx → α)
    (h : Shape.Concatenates [(⟨2, ![a1, b]⟩ : Shape), ⟨2, ![a2, b]⟩] ⟨2, ![A, b]⟩ 0) (r : Fin A) (k : Fin a1) (hk : k.val = r.val) (j : Fin b) :
    concatenate ⟨2, ![A, b]⟩ 0 [⟨⟨2, ![a1, b]⟩, x1⟩, ⟨⟨2, ![a2, b]⟩, x2⟩] h (ix2 r j) = x1 (ix2 k j) := by
  refine concatenate_pair_apply_left 0 x1 x2 h (ix2 r j) rfl (ix2 k j) (fun x => ?_)
  match x with
  | ⟨0, _⟩ => exact hk
  | ⟨1, _⟩ => rfl

/-- Two matrices stacked along the rows, read in the lower one. -/
theorem stack_lower {a1 a2 A b : ℕ} (x1 : (⟨2, ![a1, b]⟩ : Shape).Idx → α) (x2 : (⟨2, ![a2, b]⟩ : Shape).Idx → α)
    (h : Shape.Concatenates [(⟨2, ![a1, b]⟩ : Shape), ⟨2, ![a2, b]⟩] ⟨2, ![A, b]⟩ 0) (r : Fin A) (k : Fin a2) (hk : k.val + a1 = r.val) (j : Fin b) :
    concatenate ⟨2, ![A, b]⟩ 0 [⟨⟨2, ![a1, b]⟩, x1⟩, ⟨⟨2, ![a2, b]⟩, x2⟩] h (ix2 r j) = x2 (ix2 k j) := by
  refine concatenate_pair_apply_right 0 x1 x2 h (ix2 r j) rfl rfl (ix2 k j) (fun x hx => ?_) hk
  match x with
  | ⟨0, _⟩ => exact absurd rfl hx
  | ⟨1, _⟩ => rfl

end Idealize.ShloMosaic.ChebLayout

end
-- ==== Proof.KernelEntry.lean ====
/-
  An entry of the kernel's product, unfolded into the reference's three convolutions.

  Row n of the joined feature matrix is the seven rows x, T₁⁰, T₂⁰, T₁¹, T₂¹, T₁², T₂² (row n of each) laid end to end;
  column j of the joined weight matrix is the sum over the convolutions of W[i,0] (column j) followed by columns j of
  W[0,1], W[0,2], W[1,1], W[1,2], W[2,1], W[2,2]; the bias entry is the sum of the three biases' entries j.  When the
  entries of x and of the W[i,0] are reals, the one contraction over 896 positions plus the summed bias is the sum of the
  three convolutions' terms.
-/
import proofs.«176885_j5111011082637_1_alg».proof.Proof.PrefixIdeal
import proofs.«176885_j5111011082637_1_alg».proof.Proof.LibChebFold
import proofs.«176885_j5111011082637_1_alg».proof.Proof.LibChebLayout
import proofs.«176885_j5111011082637_1_alg».proof.Proof.LibDenseRow

set_option maxRecDepth 16384

noncomputable section

open scoped BigOperators

namespace Cert.KernelIdeal.Entry

open Cert.KernelIdeal Cert.KernelIdeal.Gen Cert.KernelIdeal.Prefix
open Idealize.ShloMosaic Idealize.ShloMosaic.ValueIdx Idealize.ShloMosaic.ChebFold

/-- The convolution a block of the joined matrices belongs to (blocks 1, 2 to convolution 0; 3, 4 to 1; 5, 6 to 2). -/
def convOf (p : Fin 7) : Fin 3 := ⟨(p.val - 1) / 2, by have := p.isLt; omega⟩
/-- The Chebyshev order of a block (odd blocks order 1, even blocks order 2). -/
def orderOf (p : Fin 7) : Fin 3 := ⟨1 + (p.val - 1) % 2, by omega⟩

/-- The bias row's entry j is zero plus the three biases' entries j. -/
theorem brow_apply (a4 : FVec Ideal S3x128 .f32) (j : Fin 128) :
    brow (F := Ideal) a4 (ix2 (0 : Fin 1) j) = (0 : EReal) + ∑ i : Fin 3, a4 (ix2 i j) := by
  unfold brow
  rw [broadcastInDim_apply _ bcast_S128_S1x128_1 _ (ix2 (0 : Fin 1) j) (ix1 j) (fun x => by
    match x with
    | ⟨0, _⟩ => show j.val = if (128 : ℕ) = 1 then 0 else j.val; rw [if_neg (by decide)])]
  rw [ChebLayout.sum_rows_apply a4 _ reducesTo_S3x128_S128_d0 (by decide) h_S_ j, constant_apply, Ideal.ofBits_zero_f32]

/-- The first 128 rows of the joined weights hold zero plus the sum over the convolutions of W[i,0]. -/
theorem wcat_upper (a3 : FVec Ideal S3x3x128x128 .f32) (q : Fin 128) (j : Fin 128) (r : Fin 896) (hr : q.val = r.val) :
    wcat (F := Ideal) a3 (ix2 r j) = (0 : EReal) + ∑ i : Fin 3, a3 (ix4 i (0 : Fin 3) q j) := by
  unfold wcat
  rw [ChebLayout.stack_upper _ _ concatenates_S128x128_S768x128_S896x128_d0 r q hr j]
  rw [ChebLayout.sum_stack_apply _ _ reducesTo_S3x128x128_S128x128_d0 (by decide) h_S_ q j, constant_apply, Ideal.ofBits_zero_f32]
  refine congrArg ((0 : EReal) + ·) (Finset.sum_congr rfl fun i _ => ?_)
  exact ChebLayout.column_of_4 0 (by decide) a3 slices_S3x3x128x128_S3x1x128x128_0_0_0_0 shapeCasts_S3x1x128x128_S3x128x128 i q j

/-- Block p ≥ 1 of the joined weights is the matrix of its convolution and order. -/
theorem wcat_lower (a3 : FVec Ideal S3x3x128x128 .f32) (p : Fin 7) (hp : p ≠ 0) (q : Fin 128) (j : Fin 128) (r : Fin 896)
    (hr : r.val = p.val * 128 + q.val) :
    wcat (F := Ideal) a3 (ix2 r j) = a3 (ix4 (convOf p) (orderOf p) q j) := by
  have hp0 : p.val ≠ 0 := fun h => hp (Fin.ext h)
  have hp7 := p.isLt
  unfold wcat
  rw [ChebLayout.stack_lower _ _ concatenates_S128x128_S768x128_S896x128_d0 r
    (⟨(p.val - 1) * 128 + q.val, by have := q.isLt; omega⟩ : Fin 768) (by show (p.val - 1) * 128 + q.val + 128 = r.val; omega) j]
  exact ChebLayout.two_columns_rows 1 a3 slices_S3x3x128x128_S3x2x128x128_0_1_0_0 shapeCasts_S3x2x128x128_S768x128
    (convOf p) ⟨(p.val - 1) % 2, by omega⟩ (by show 1 + (p.val - 1) % 2 < 3; omega) q j _
    (by show (p.val - 1) * 128 + q.val = ((p.val - 1) / 2 * 2 + (p.val - 1) % 2) * 128 + q.val; omega)

/-- Block p of row n of the joined features is row n of the p-th term. -/
theorem join7_apply (T : Fin 7 → FVec Ideal S50000x128 .f32) (n : Fin 50000) (p : Fin 7) (q : Fin 128) (r : Fin 896)
    (hr : r.val = p.val * 128 + q.val) :
    join7 (F := Ideal) (T 0) (T 1) (T 2) (T 3) (T 4) (T 5) (T 6) (ix2 n r) = T p (ix2 n q) := by
  unfold join7
  have hq := q.isLt
  exact concatenate_ofFn_apply (t := S50000x896) (s₁ := S50000x128) 1 T
    concatenates_S50000x128_S50000x128_S50000x128_S50000x128_S50000x128_S50000x128_S50000x128_S50000x896_d1 rfl 128 rfl (ix2 n r) p
    (by show r.val / 128 = p.val; omega) (ix2 n q) (by show q.val = r.val % 128; omega)
    (fun b hb => by
      match b with
      | ⟨0, _⟩ => rfl
      | ⟨1, _⟩ => exact absurd rfl hb)

/-- The kernel's entry (n, j) — one contraction over the 896 joined positions plus the summed bias — is zero plus the three
    convolutions' terms, when the node features and the order-0 weights are reals. -/
theorem kernel_entry (a0 t10 t20 t11 t21 t12 t22 : FVec Ideal S50000x128 .f32) (a3 : FVec Ideal S3x3x128x128 .f32)
    (a4 : FVec Ideal S3x128 .f32) (hx : ∀ i, ∃ r : ℝ, a0 i = (r : EReal)) (hw : ∀ i, ∃ r : ℝ, a3 i = (r : EReal))
    (n : Fin 50000) (j : Fin 128) :
    GcnDense.entry (truncf .bf16 (join7 (F := Ideal) a0 t10 t20 t11 t21 t12 t22) bitsLt_bf16_f32 : FVec Ideal S50000x896 .bf16)
        (truncf .bf16 (wcat (F := Ideal) a3) bitsLt_bf16_f32 : FVec Ideal S896x128 .bf16) (brow (F := Ideal) a4) n j
      = (((0 : EReal) + ((((∑ k : Fin 128, a0 (ix2 n k) * a3 (ix4 (0 : Fin 3) (0 : Fin 3) k j)) + ∑ k : Fin 128, t10 (ix2 n k) * a3 (ix4 (0 : Fin 3) (1 : Fin 3) k j)) + ∑ k : Fin 128, t20 (ix2 n k) * a3 (ix4 (0 : Fin 3) (2 : Fin 3) k j)) + a4 (ix2 (0 : Fin 3) j)))
          + ((((∑ k : Fin 128, a0 (ix2 n k) * a3 (ix4 (1 : Fin 3) (0 : Fin 3) k j)) + ∑ k : Fin 128, t11 (ix2 n k) * a3 (ix4 (1 : Fin 3) (1 : Fin 3) k j)) + ∑ k : Fin 128, t21 (ix2 n k) * a3 (ix4 (1 : Fin 3) (2 : Fin 3) k j)) + a4 (ix2 (1 : Fin 3) j)))
          + ((((∑ k : Fin 128, a0 (ix2 n k) * a3 (ix4 (2 : Fin 3) (0 : Fin 3) k j)) + ∑ k : Fin 128, t12 (ix2 n k) * a3 (ix4 (2 : Fin 3) (1 : Fin 3) k j)) + ∑ k : Fin 128, t22 (ix2 n k) * a3 (ix4 (2 : Fin 3) (2 : Fin 3) k j)) + a4 (ix2 (2 : Fin 3) j)) := by
  unfold GcnDense.entry
  rw [brow_apply]
  let T : Fin 7 → FVec Ideal S50000x128 .f32 := ![a0, t10, t20, t11, t21, t12, t22]
  refine (ChebFold.fold7_blocks (C := 128)
    (fun k => (truncf .bf16 (join7 (F := Ideal) a0 t10 t20 t11 t21 t12 t22) bitsLt_bf16_f32 : FVec Ideal S50000x896 .bf16) (ix2 n k))
    (fun k => (truncf .bf16 (wcat (F := Ideal) a3) bitsLt_bf16_f32 : FVec Ideal S896x128 .bf16) (ix2 k j))
    (fun p q => T p (ix2 n q)) (fun p q => a3 (ix4 (convOf p) (orderOf p) q j)) (fun i q => a3 (ix4 i (0 : Fin 3) q j))
    (fun i => a4 (ix2 i j)) (fun p q => ?_) (fun p q hp => ?_) (fun q => ?_) (fun q => hx _) (fun i q => hw _)).trans ?_
  · show (truncf .bf16 (join7 (F := Ideal) a0 t10 t20 t11 t21 t12 t22) bitsLt_bf16_f32 : FVec Ideal S50000x896 .bf16) (ix2 n (blk p q)) = T p (ix2 n q)
    rw [truncf_apply]
    exact join7_apply T n p q (blk p q) rfl
  · show (truncf .bf16 (wcat (F := Ideal) a3) bitsLt_bf16_f32 : FVec Ideal S896x128 .bf16) (ix2 (blk p q) j) = a3 (ix4 (convOf p) (orderOf p) q j)
    rw [truncf_apply]
    exact wcat_lower a3 p hp q j (blk p q) rfl
  · show (truncf .bf16 (wcat (F := Ideal) a3) bitsLt_bf16_f32 : FVec Ideal S896x128 .bf16) (ix2 (blk 0 q) j) = (0 : EReal) + ∑ i : Fin 3, a3 (ix4 i (0 : Fin 3) q j)
    rw [truncf_apply]
    exact wcat_upper a3 q j (blk 0 q) (by show q.val = 0 * 128 + q.val; omega)
  · rfl

end Cert.KernelIdeal.Entry

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«176885_j5111011082637_1_alg».proof.Proof.LibContract
import proofs.«176885_j5111011082637_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.RefValue.lean ====
/-
  The reference's result at an entry.

  The reference adds, from zero, the three convolutions' outputs; convolution i's output at (n, j) is
  x·W[i,0] + T₁ⁱ·W[i,1] + T₂ⁱ·W[i,2] + bᵢ, each product the sum over the 128 channels.  Its edge lists are taken out of
  the edge table in two steps where the kernel's host code takes them in one; entry by entry they are the same lists, so
  its Chebyshev terms are the kernel's.
-/
import proofs.«176885_j5111011082637_1_alg».proof.Proof.Gen.ReferenceIdeal.Run
import proofs.«176885_j5111011082637_1_alg».proof.Proof.PrefixIdeal
import proofs.«176885_j5111011082637_1_alg».proof.Proof.LibChebLayout
import proofs.«176885_j5111011082637_1_alg».proof.Proof.LibDenseVec
import proofs.«176885_j5111011082637_1_alg».proof.Proof.LibKeepdims
import Idealize.ShloMosaic.Lib.IdealHost

set_option maxRecDepth 16384

noncomputable section

open scoped BigOperators

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-- The sources of convolution 0, taken in two steps, are the list taken in one. -/
theorem src_eq0 (V0 : Valuation τ sig (Elt Ideal)) : res_main_v10 V0 = (Cert.KernelIdeal.Prefix.ends ![0, 0, 0] Cert.KernelIdeal.Gen.slices_S3x2x800000_S1x1x800000_0_0_0 (V0 (Proc.devRef .tc main_arg1) : IVec S3x2x800000 32)) := by
  funext e
  obtain ⟨q, rfl⟩ : ∃ q : Fin 800000, e = ix1 q := ⟨e 0, eq_ix1 e⟩
  unfold res_main_v10 res_main_v2 Cert.KernelIdeal.Prefix.ends
  exact (ChebLayout.list_twostep 0 0 (by decide) (by decide) _ _ _ _ _ q).trans (ChebLayout.list_direct 0 0 (by decide) (by decide) _ _ _ q).symm

/-- The targets of convolution 0, likewise. -/
theorem dst_eq0 (V0 : Valuation τ sig (Elt Ideal)) : res_main_v12 V0 = (Cert.KernelIdeal.Prefix.ends ![0, 1, 0] Cert.KernelIdeal.Gen.slices_S3x2x800000_S1x1x800000_0_1_0 (V0 (Proc.devRef .tc main_arg1) : IVec S3x2x800000 32)) := by
  funext e
  obtain ⟨q, rfl⟩ : ∃ q : Fin 800000, e = ix1 q := ⟨e 0, eq_ix1 e⟩
  unfold res_main_v12 res_main_v2 Cert.KernelIdeal.Prefix.ends
  exact (ChebLayout.list_twostep 0 1 (by decide) (by decide) _ _ _ _ _ q).trans (ChebLayout.list_direct 0 1 (by decide) (by decide) _ _ _ q).symm

/-- The first Chebyshev term of convolution 0. -/
theorem t1_eq0 (V0 : Valuation τ sig (Elt Ideal)) : res_main_v41 V0 = (Cert.KernelIdeal.Prefix.lhat (F := Ideal) (Cert.KernelIdeal.Prefix.ends ![0, 0, 0] Cert.KernelIdeal.Gen.slices_S3x2x800000_S1x1x800000_0_0_0 (V0 (Proc.devRef .tc main_arg1) : IVec S3x2x800000 32)) (Cert.KernelIdeal.Prefix.ends ![0, 1, 0] Cert.KernelIdeal.Gen.slices_S3x2x800000_S1x1x800000_0_1_0 (V0 (Proc.devRef .tc main_arg1) : IVec S3x2x800000 32)) (Cert.KernelIdeal.Prefix.wts (F := Ideal) ![0, 0] Cert.KernelIdeal.Gen.slices_S3x800000_S1x800000_0_0 (V0 (Proc.devRef .tc main_arg2) : FVec Ideal S3x800000 .f32)) (V0 (Proc.devRef .tc main_arg0) : FVec Ideal S50000x128 .f32)) := by
  unfold res_main_v41 res_main_v21 res_main_v17
  rw [src_eq0 V0, dst_eq0 V0]
  rfl

/-- The weights of convolution 0, by order. -/
theorem wc0 (V0 : Valuation τ sig (Elt Ideal)) (s : Fin 3) (k j : Fin 128) : res_main_v6 V0 (ix3 s k j) = (V0 (Proc.devRef .tc main_arg3) : FVec Ideal S3x3x128x128 .f32) (ix4 (0 : Fin 3) s k j) := by
  unfold res_main_v6
  exact ChebLayout.stack_of_4 0 (by decide) _ _ _ s k j

/-- The bias of convolution 0. -/
theorem bv0 (V0 : Valuation τ sig (Elt Ideal)) (j : Fin 128) :
    shapeCast S128 (extractStridedSlice S1x128 ![0, 0] (V0 (Proc.devRef .tc main_arg4) : FVec Ideal S3x128 .f32) slices_S3x128_S1x128_0_0) shapeCasts_S1x128_S128 (ix1 j) = (V0 (Proc.devRef .tc main_arg4) : FVec Ideal S3x128 .f32) (ix2 (0 : Fin 3) j) :=
  ChebLayout.row_of 0 (by decide) _ _ _ j

/-- The sources of convolution 1, taken in two steps, are the list taken in one. -/
theorem src_eq1 (V0 : Valuation τ sig (Elt Ideal)) : res_main_v83 V0 = (Cert.KernelIdeal.Prefix.ends ![1, 0, 0] Cert.KernelIdeal.Gen.slices_S3x2x800000_S1x1x800000_1_0_0 (V0 (Proc.devRef .tc main_arg1) : IVec S3x2x800000 32)) := by
  funext e
  obtain ⟨q, rfl⟩ : ∃ q : Fin 800000, e = ix1 q := ⟨e 0, eq_ix1 e⟩
  unfold res_main_v83 res_main_v75 Cert.KernelIdeal.Prefix.ends
  exact (ChebLayout.list_twostep 1 0 (by decide) (by decide) _ _ _ _ _ q).trans (ChebLayout.list_direct 1 0 (by decide) (by decide) _ _ _ q).symm

/-- The targets of convolution 1, likewise. -/
theorem dst_eq1 (V0 : Valuation τ sig (Elt Ideal)) : res_main_v85 V0 = (Cert.KernelIdeal.Prefix.ends ![1, 1, 0] Cert.KernelIdeal.Gen.slices_S3x2x800000_S1x1x800000_1_1_0 (V0 (Proc.devRef .tc main_arg1) : IVec S3x2x800000 32)) := by
  funext e
  obtain ⟨q, rfl⟩ : ∃ q : Fin 800000, e = ix1 q := ⟨e 0, eq_ix1 e⟩
  unfold res_main_v85 res_main_v75 Cert.KernelIdeal.Prefix.ends
  exact (ChebLayout.list_twostep 1 1 (by decide) (by decide) _ _ _ _ _ q).trans (ChebLayout.list_direct 1 1 (by decide) (by decide) _ _ _ q).symm

/-- The first Chebyshev term of convolution 1. -/
theorem t1_eq1 (V0 : Valuation τ sig (Elt Ideal)) : res_main_v114 V0 = (Cert.KernelIdeal.Prefix.lhat (F := Ideal) (Cert.KernelIdeal.Prefix.ends ![1, 0, 0] Cert.KernelIdeal.Gen.slices_S3x2x800000_S1x1x800000_1_0_0 (V0 (Proc.devRef .tc main_arg1) : IVec S3x2x800000 32)) (Cert.KernelIdeal.Prefix.ends ![1, 1, 0] Cert.KernelIdeal.Gen.slices_S3x2x800000_S1x1x800000_1_1_0 (V0 (Proc.devRef .tc main_arg1) : IVec S3x2x800000 32)) (Cert.KernelIdeal.Prefix.wts (F := Ideal) ![1, 0] Cert.KernelIdeal.Gen.slices_S3x800000_S1x800000_1_0 (V0 (Proc.devRef .tc main_arg2) : FVec Ideal S3x800000 .f32)) (V0 (Proc.devRef .tc main_arg0) : FVec Ideal S50000x128 .f32)) := by
  unfold res_main_v114 res_main_v94 res_main_v90
  rw [src_eq1 V0, dst_eq1 V0]
  rfl

/-- The weights of convolution 1, by order. -/
theorem wc1 (V0 : Valuation τ sig (Elt Ideal)) (s : Fin 3) (k j : Fin 128) : res_main_v79 V0 (ix3 s k j) = (V0 (Proc.devRef .tc main_arg3) : FVec Ideal S3x3x128x128 .f32) (ix4 (1 : Fin 3) s k j) := by
  unfold res_main_v79
  exact ChebLayout.stack_of_4 1 (by decide) _ _ _ s k j

/-- The bias of convolution 1. -/
theorem bv1 (V0 : Valuation τ sig (Elt Ideal)) (j : Fin 128) :
    shapeCast S128 (extractStridedSlice S1x128 ![1, 0] (V0 (Proc.devRef .tc main_arg4) : FVec Ideal S3x128 .f32) slices_S3x128_S1x128_1_0) shapeCasts_S1x128_S128 (ix1 j) = (V0 (Proc.devRef .tc main_arg4) : FVec Ideal S3x128 .f32) (ix2 (1 : Fin 3) j) :=
  ChebLayout.row_of 1 (by decide) _ _ _ j

/-- The sources of convolution 2, taken in two steps, are the list taken in one. -/
theorem src_eq2 (V0 : Valuation τ sig (Elt Ideal)) : res_main_v156 V0 = (Cert.KernelIdeal.Prefix.ends ![2, 0, 0] Cert.KernelIdeal.Gen.slices_S3x2x800000_S1x1x800000_2_0_0 (V0 (Proc.devRef .tc main_arg1) : IVec S3x2x800000 32)) := by
  funext e
  obtain ⟨q, rfl⟩ : ∃ q : Fin 800000, e = ix1 q := ⟨e 0, eq_ix1 e⟩
  unfold res_main_v156 res_main_v148 Cert.KernelIdeal.Prefix.ends
  exact (ChebLayout.list_twostep 2 0 (by decide) (by decide) _ _ _ _ _ q).trans (ChebLayout.list_direct 2 0 (by decide) (by decide) _ _ _ q).symm

/-- The targets of convolution 2, likewise. -/
theorem dst_eq2 (V0 : Valuation τ sig (Elt Ideal)) : res_main_v158 V0 = (Cert.KernelIdeal.Prefix.ends ![2, 1, 0] Cert.KernelIdeal.Gen.slices_S3x2x800000_S1x1x800000_2_1_0 (V0 (Proc.devRef .tc main_arg1) : IVec S3x2x800000 32)) := by
  funext e
  obtain ⟨q, rfl⟩ : ∃ q : Fin 800000, e = ix1 q := ⟨e 0, eq_ix1 e⟩
  unfold res_main_v158 res_main_v148 Cert.KernelIdeal.Prefix.ends
  exact (ChebLayout.list_twostep 2 1 (by decide) (by decide) _ _ _ _ _ q).trans (ChebLayout.list_direct 2 1 (by decide) (by decide) _ _ _ q).symm

/-- The first Chebyshev term of convolution 2. -/
theorem t1_eq2 (V0 : Valuation τ sig (Elt Ideal)) : res_main_v187 V0 = (Cert.KernelIdeal.Prefix.lhat (F := Ideal) (Cert.KernelIdeal.Prefix.ends ![2, 0, 0] Cert.KernelIdeal.Gen.slices_S3x2x800000_S1x1x800000_2_0_0 (V0 (Proc.devRef .tc main_arg1) : IVec S3x2x800000 32)) (Cert.KernelIdeal.Prefix.ends ![2, 1, 0] Cert.KernelIdeal.Gen.slices_S3x2x800000_S1x1x800000_2_1_0 (V0 (Proc.devRef .tc main_arg1) : IVec S3x2x800000 32)) (Cert.KernelIdeal.Prefix.wts (F := Ideal) ![2, 0] Cert.KernelIdeal.Gen.slices_S3x800000_S1x800000_2_0 (V0 (Proc.devRef .tc main_arg2) : FVec Ideal S3x800000 .f32)) (V0 (Proc.devRef .tc main_arg0) : FVec Ideal S50000x128 .f32)) := by
  unfold res_main_v187 res_main_v167 res_main_v163
  rw [src_eq2 V0, dst_eq2 V0]
  rfl

/-- The weights of convolution 2, by order. -/
theorem wc2 (V0 : Valuation τ sig (Elt Ideal)) (s : Fin 3) (k j : Fin 128) : res_main_v152 V0 (ix3 s k j) = (V0 (Proc.devRef .tc main_arg3) : FVec Ideal S3x3x128x128 .f32) (ix4 (2 : Fin 3) s k j) := by
  unfold res_main_v152
  exact ChebLayout.stack_of_4 2 (by decide) _ _ _ s k j

/-- The bias of convolution 2. -/
theorem bv2 (V0 : Valuation τ sig (Elt Ideal)) (j : Fin 128) :
    shapeCast S128 (extractStridedSlice S1x128 ![2, 0] (V0 (Proc.devRef .tc main_arg4) : FVec Ideal S3x128 .f32) slices_S3x128_S1x128_2_0) shapeCasts_S1x128_S128 (ix1 j) = (V0 (Proc.devRef .tc main_arg4) : FVec Ideal S3x128 .f32) (ix2 (2 : Fin 3) j) :=
  ChebLayout.row_of 2 (by decide) _ _ _ j

/-- The reference's products contract the left operand's columns with the right operand's rows. -/
theorem plain : DenseVec.Plain dot_S50000x128_S128x128_S50000x128_1_0_0_1_n_n :=
  ⟨rfl, fun _ => rfl, rfl, rfl, fun _ _ => rfl, fun _ _ => rfl⟩

set_option maxHeartbeats 4000000 in
/-- The reference's result at (n, j): zero plus the three convolutions' terms, over the argument arrays. -/
theorem ref_entry (V0 : Valuation τ sig (Elt Ideal)) (a0 : FVec Ideal S50000x128 .f32) (a1 : IVec S3x2x800000 32) (a2 : FVec Ideal S3x800000 .f32)
    (a3 : FVec Ideal S3x3x128x128 .f32) (a4 : FVec Ideal S3x128 .f32)
    (h0 : V0 (Proc.devRef .tc main_arg0) = a0) (h1 : V0 (Proc.devRef .tc main_arg1) = a1) (h2 : V0 (Proc.devRef .tc main_arg2) = a2)
    (h3 : V0 (Proc.devRef .tc main_arg3) = a3) (h4 : V0 (Proc.devRef .tc main_arg4) = a4) (n : Fin 50000) (j : Fin 128) :
    val5 V0 (Proc.devRef .tc main_v219) (ix2 n j)
      = (((0 : EReal) + ((((∑ k : Fin 128, a0 (ix2 n k) * a3 (ix4 (0 : Fin 3) (0 : Fin 3) k j)) + ∑ k : Fin 128, (Cert.KernelIdeal.Prefix.lhat (F := Ideal) (Cert.KernelIdeal.Prefix.ends ![0, 0, 0] Cert.KernelIdeal.Gen.slices_S3x2x800000_S1x1x800000_0_0_0 a1) (Cert.KernelIdeal.Prefix.ends ![0, 1, 0] Cert.KernelIdeal.Gen.slices_S3x2x800000_S1x1x800000_0_1_0 a1) (Cert.KernelIdeal.Prefix.wts (F := Ideal) ![0, 0] Cert.KernelIdeal.Gen.slices_S3x800000_S1x800000_0_0 a2) a0) (ix2 n k) * a3 (ix4 (0 : Fin 3) (1 : Fin 3) k j)) + ∑ k : Fin 128, (Cert.KernelIdeal.Prefix.second (F := Ideal) (constant S_ .f32 0x40000000#32) (Cert.KernelIdeal.Prefix.lhat (F := Ideal) (Cert.KernelIdeal.Prefix.ends ![0, 0, 0] Cert.KernelIdeal.Gen.slices_S3x2x800000_S1x1x800000_0_0_0 a1) (Cert.KernelIdeal.Prefix.ends ![0, 1, 0] Cert.KernelIdeal.Gen.slices_S3x2x800000_S1x1x800000_0_1_0 a1) (Cert.KernelIdeal.Prefix.wts (F := Ideal) ![0, 0] Cert.KernelIdeal.Gen.slices_S3x800000_S1x800000_0_0 a2) (Cert.KernelIdeal.Prefix.lhat (F := Ideal) (Cert.KernelIdeal.Prefix.ends ![0, 0, 0] Cert.KernelIdeal.Gen.slices_S3x2x800000_S1x1x800000_0_0_0 a1) (Cert.KernelIdeal.Prefix.ends ![0, 1, 0] Cert.KernelIdeal.Gen.slices_S3x2x800000_S1x1x800000_0_1_0 a1) (Cert.KernelIdeal.Prefix.wts (F := Ideal) ![0, 0] Cert.KernelIdeal.Gen.slices_S3x800000_S1x800000_0_0 a2) a0)) a0) (ix2 n k) * a3 (ix4 (0 : Fin 3) (2 : Fin 3) k j)) + a4 (ix2 (0 : Fin 3) j)))
          + ((((∑ k : Fin 128, a0 (ix2 n k) * a3 (ix4 (1 : Fin 3) (0 : Fin 3) k j)) + ∑ k : Fin 128, (Cert.KernelIdeal.Prefix.lhat (F := Ideal) (Cert.KernelIdeal.Prefix.ends ![1, 0, 0] Cert.KernelIdeal.Gen.slices_S3x2x800000_S1x1x800000_1_0_0 a1) (Cert.KernelIdeal.Prefix.ends ![1, 1, 0] Cert.KernelIdeal.Gen.slices_S3x2x800000_S1x1x800000_1_1_0 a1) (Cert.KernelIdeal.Prefix.wts (F := Ideal) ![1, 0] Cert.KernelIdeal.Gen.slices_S3x800000_S1x800000_1_0 a2) a0) (ix2 n k) * a3 (ix4 (1 : Fin 3) (1 : Fin 3) k j)) + ∑ k : Fin 128, (Cert.KernelIdeal.Prefix.second (F := Ideal) (constant S_ .f32 0x40000000#32) (Cert.KernelIdeal.Prefix.lhat (F := Ideal) (Cert.KernelIdeal.Prefix.ends ![1, 0, 0] Cert.KernelIdeal.Gen.slices_S3x2x800000_S1x1x800000_1_0_0 a1) (Cert.KernelIdeal.Prefix.ends ![1, 1, 0] Cert.KernelIdeal.Gen.slices_S3x2x800000_S1x1x800000_1_1_0 a1) (Cert.KernelIdeal.Prefix.wts (F := Ideal) ![1, 0] Cert.KernelIdeal.Gen.slices_S3x800000_S1x800000_1_0 a2) (Cert.KernelIdeal.Prefix.lhat (F := Ideal) (Cert.KernelIdeal.Prefix.ends ![1, 0, 0] Cert.KernelIdeal.Gen.slices_S3x2x800000_S1x1x800000_1_0_0 a1) (Cert.KernelIdeal.Prefix.ends ![1, 1, 0] Cert.KernelIdeal.Gen.slices_S3x2x800000_S1x1x800000_1_1_0 a1) (Cert.KernelIdeal.Prefix.wts (F := Ideal) ![1, 0] Cert.KernelIdeal.Gen.slices_S3x800000_S1x800000_1_0 a2) a0)) a0) (ix2 n k) * a3 (ix4 (1 : Fin 3) (2 : Fin 3) k j)) + a4 (ix2 (1 : Fin 3) j)))
          + ((((∑ k : Fin 128, a0 (ix2 n k) * a3 (ix4 (2 : Fin 3) (0 : Fin 3) k j)) + ∑ k : Fin 128, (Cert.KernelIdeal.Prefix.lhat (F := Ideal) (Cert.KernelIdeal.Prefix.ends ![2, 0, 0] Cert.KernelIdeal.Gen.slices_S3x2x800000_S1x1x800000_2_0_0 a1) (Cert.KernelIdeal.Prefix.ends ![2, 1, 0] Cert.KernelIdeal.Gen.slices_S3x2x800000_S1x1x800000_2_1_0 a1) (Cert.KernelIdeal.Prefix.wts (F := Ideal) ![2, 0] Cert.KernelIdeal.Gen.slices_S3x800000_S1x800000_2_0 a2) a0) (ix2 n k) * a3 (ix4 (2 : Fin 3) (1 : Fin 3) k j)) + ∑ k : Fin 128, (Cert.KernelIdeal.Prefix.second (F := Ideal) (constant S_ .f32 0x40000000#32) (Cert.KernelIdeal.Prefix.lhat (F := Ideal) (Cert.KernelIdeal.Prefix.ends ![2, 0, 0] Cert.KernelIdeal.Gen.slices_S3x2x800000_S1x1x800000_2_0_0 a1) (Cert.KernelIdeal.Prefix.ends ![2, 1, 0] Cert.KernelIdeal.Gen.slices_S3x2x800000_S1x1x800000_2_1_0 a1) (Cert.KernelIdeal.Prefix.wts (F := Ideal) ![2, 0] Cert.KernelIdeal.Gen.slices_S3x800000_S1x800000_2_0 a2) (Cert.KernelIdeal.Prefix.lhat (F := Ideal) (Cert.KernelIdeal.Prefix.ends ![2, 0, 0] Cert.KernelIdeal.Gen.slices_S3x2x800000_S1x1x800000_2_0_0 a1) (Cert.KernelIdeal.Prefix.ends ![2, 1, 0] Cert.KernelIdeal.Gen.slices_S3x2x800000_S1x1x800000_2_1_0 a1) (Cert.KernelIdeal.Prefix.wts (F := Ideal) ![2, 0] Cert.KernelIdeal.Gen.slices_S3x800000_S1x800000_2_0 a2) a0)) a0) (ix2 n k) * a3 (ix4 (2 : Fin 3) (2 : Fin 3) k j)) + a4 (ix2 (2 : Fin 3) j)) := by
  subst h0 h1 h2 h3 h4
  rw [val5_main_v219]
  unfold res_main_v146
  simp only [res_main_v21, res_main_v17, res_main_v94, res_main_v90, res_main_v167, res_main_v163]
  rw [t1_eq0 V0, t1_eq1 V0, t1_eq2 V0, src_eq0 V0, dst_eq0 V0, src_eq1 V0, dst_eq1 V0, src_eq2 V0, dst_eq2 V0]
  simp only [addf_apply, DenseVec.dotGeneral_ix2 plain, Keepdims.cols_apply bcast_S128_S1x128_1 bcast_S1x128_S50000x128_0_1, broadcastInDim_scalar_apply bcast_S_S50000x128, constant_apply, Ideal.ofBits_zero_f32,
    ChebLayout.mat_of_stack (n := 3) (a := 128) (b := 128) 0 (by decide), ChebLayout.mat_of_stack (n := 3) (a := 128) (b := 128) 1 (by decide),
    ChebLayout.mat_of_stack (n := 3) (a := 128) (b := 128) 2 (by decide), wc0, wc1, wc2]
  rw [bv0 V0 j, bv1 V0 j, bv2 V0 j]
  rfl

end Cert.ReferenceIdeal.RefValue

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.Finite.lean ====
/-
  The precondition, decoded: every entry of the node features and of the weights is a real number.

  The precondition is the conjunction of four tests, one per float argument, each saying that every entry's absolute
  value is below +∞.  The first and the third conjunct are about the node features and the weights.
-/
import proofs.«176885_j5111011082637_1_alg».proof.Pre_finite_inputs
import proofs.«176885_j5111011082637_1_alg».proof.Proof.Gen.Pre_finite_inputs
import Idealize.ShloMosaic.Lib.ReduceAll
import Idealize.ShloMosaic.Lib.Affine
import Idealize.ShloMosaic.Lib.ValueIdx
import proofs.«176885_j5111011082637_1_alg».proof.Proof.LibFiniteEntry

noncomputable section

namespace Cert.Pre_finite_inputs.Finite

open Cert.Pre_finite_inputs Cert.Pre_finite_inputs.Gen Idealize.ShloMosaic

instance : Subsingleton S_.Idx := ⟨fun a b => funext fun d => d.elim0⟩

/-- Under the precondition the node features and the weights hold real numbers. -/
theorem reals (a0 : FVec Ideal S50000x128 .f32) (a1 : IVec S3x2x800000 32) (a2 : FVec Ideal S3x800000 .f32)
    (a3 : FVec Ideal S3x3x128x128 .f32) (a4 : FVec Ideal S3x128 .f32)
    (h : fn (F := Ideal) a0 a1 a2 a3 a4 = fun _ => 1#1) :
    (∀ i, ∃ r : ℝ, a0 i = (r : EReal)) ∧ (∀ i, ∃ r : ℝ, a3 i = (r : EReal)) := by
  have h0 := congrFun h ValueIdx.ix0
  dsimp only [fn, fn_part1] at h0
  obtain ⟨h13, -⟩ := IntOp.andi_eq_one.mp h0
  obtain ⟨h8, h12⟩ := IntOp.andi_eq_one.mp h13
  obtain ⟨h3, -⟩ := IntOp.andi_eq_one.mp h8
  refine ⟨fun i => ?_, fun i => ?_⟩
  · exact FiniteEntry.real_of_abs_lt_inf (a0 i) (Host.reduce_andi_all _ _ _ _ _ h3 i)
  · exact FiniteEntry.real_of_abs_lt_inf (a3 i) (Host.reduce_andi_all _ _ _ _ _ h12 i)

end Cert.Pre_finite_inputs.Finite

end
-- ==== Proof.lean ====
/-
  Three Chebyshev graph convolutions of order 3, summed: the kernel's single folded product against the reference's
  nine separate ones.

  For each convolution i the host code forms T₁ⁱ = L̂ᵢ x and T₂ⁱ = 2 L̂ᵢ T₁ⁱ − x by gathers and scatter-adds.  The
  reference adds up, from zero, x·W[i,0] + T₁ⁱ·W[i,1] + T₂ⁱ·W[i,2] + bᵢ over i.  The kernel joins x, T₁ⁱ, T₂ⁱ into one
  50000 × 896 matrix, the weights into one 896 × 128 matrix whose first block is Σᵢ W[i,0], the biases into one row
  Σᵢ bᵢ, and computes one product plus the row, 2000 rows per grid point.  On the extended reals a change of float
  format is the identity, so the two agree entry by entry as soon as x·(W[0,0] + W[1,0] + W[2,0]) may be multiplied
  out; that needs the entries of x and of the W[i,0] to be real numbers, which the precondition gives.  Everything else
  is commutativity and associativity of the addition, which hold on all extended reals: the Chebyshev terms, which may
  be infinite, are never opened.
-/
import proofs.«176885_j5111011082637_1_alg».proof.Defs
import proofs.«176885_j5111011082637_1_alg».proof.Proof.Gen.Kernel
import proofs.«176885_j5111011082637_1_alg».proof.Proof.Gen.KernelIdeal
import proofs.«176885_j5111011082637_1_alg».proof.Proof.Gen.ReferenceIdeal
import proofs.«176885_j5111011082637_1_alg».proof.Proof.Gen.ReferenceIdeal.Run
import proofs.«176885_j5111011082637_1_alg».proof.Proof.Gen.Pre_finite_inputs
import proofs.«176885_j5111011082637_1_alg».proof.Proof.FrameBits
import proofs.«176885_j5111011082637_1_alg».proof.Proof.FrameIdeal
import proofs.«176885_j5111011082637_1_alg».proof.Proof.KernelValue
import proofs.«176885_j5111011082637_1_alg».proof.Proof.KernelEntry
import proofs.«176885_j5111011082637_1_alg».proof.Proof.RefValue
import proofs.«176885_j5111011082637_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Idealize.ShloMosaic.ValueIdx

/-- The kernel as printed runs to the end and leaves its arguments alone. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Entry by entry the reference's result is the kernel's whole-array function of the staged arrays, when the two
    memories agree on the arguments and the precondition holds of them. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.val5 (launchContents m' c) (Proc.devRef .tc Cert.ReferenceIdeal.main_v219)
      = Cert.KernelIdeal.KValue.G (Cert.KernelIdeal.Frame.V m c Cert.KernelIdeal.main_v165) (Cert.KernelIdeal.Frame.V m c Cert.KernelIdeal.main_v166) (Cert.KernelIdeal.Frame.V m c Cert.KernelIdeal.main_v164) := by
  obtain ⟨hx, hw⟩ := Cert.Pre_finite_inputs.Finite.reals _ _ _ _ _ hpre
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  funext i
  obtain ⟨n, j, rfl⟩ : ∃ (n : Fin 50000) (j : Fin 128), i = ix2 n j := ⟨i 0, i 1, eq_ix2 i⟩
  rw [Cert.KernelIdeal.KValue.V_feat, Cert.KernelIdeal.KValue.V_wts, Cert.KernelIdeal.KValue.V_bias]
  unfold Cert.KernelIdeal.KValue.G
  show _ = GcnDense.entry _ _ _ n j
  exact (Cert.ReferenceIdeal.RefValue.ref_entry (launchContents m' c) _ _ _ _ _ e0 e1 e2 e3 e4 n j).trans
    (Cert.KernelIdeal.Entry.kernel_entry _ _ _ _ _ _ _ _ _ hx hw n j).symm

/-- No operation of the kernel was rewritten when it was idealized. -/
theorem preserves : Cert.preserves_Kernel_KernelIdeal := trivial

/-- Run from memories that agree on the arguments, the idealized kernel and the idealized reference end with the same
    result: the kernel's run names its result array, the reference's run its composed term, and `result_eq` joins them. -/
theorem algebraic : Cert.algebraic_KernelIdeal_ReferenceIdeal := by
  intro m ρ m' ρ' hpre hagree
  refine ⟨fun c => Cert.KernelIdeal.KValue.G (Cert.KernelIdeal.Frame.V m c Cert.KernelIdeal.main_v165) (Cert.KernelIdeal.Frame.V m c Cert.KernelIdeal.main_v166) (Cert.KernelIdeal.Frame.V m c Cert.KernelIdeal.main_v164),
    Cert.KernelIdeal.KValue.run m ρ, ?_⟩
  refine (θ_run Cert.ReferenceIdeal.defs _ _).mono (fun _ h c => ⟨(h c).1.trans ?_, (h c).2⟩) (Cert.ReferenceIdeal.Value.run (F := Ideal) m' ρ')
  rw [← Cert.ReferenceIdeal.Value.val5_main_v219 (launchContents m' c)]
  exact result_eq m m' c (hpre c) (hagree c).1 (hagree c).2.1 (hagree c).2.2.1 (hagree c).2.2.2.1 (hagree c).2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
